-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x1000000 : Shape := ⟨3, ![3, 2, 1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S3x2x1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S3x2x1000000 : Shape := ⟨3, ![3, 2, 1000000]⟩
abbrev S1x1x1000000 : Shape := ⟨3, ![1, 1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1x128 : Shape := ⟨3, ![100000, 1, 128]⟩
abbrev S100000x3x128 : Shape := ⟨3, ![100000, 3, 128]⟩
abbrev S100000x1 : Shape := ⟨2, ![100000, 1]⟩
abbrev S100000x3 : Shape := ⟨2, ![100000, 3]⟩
abbrev S100000x512 : Shape := ⟨2, ![100000, 512]⟩
abbrev S2000x128 : Shape := ⟨2, ![2000, 128]⟩
abbrev S2000x3x128 : Shape := ⟨3, ![2000, 3, 128]⟩
abbrev S2000x3 : Shape := ⟨2, ![2000, 3]⟩
abbrev S2000x512 : Shape := ⟨2, ![2000, 512]⟩
abbrev S2000x3x1 : Shape := ⟨3, ![2000, 3, 1]⟩
abbrev S2000x1x128 : Shape := ⟨3, ![2000, 1, 128]⟩

abbrev nBuf : Space → Nat
  | .hbm => 80
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S3x2x1000000, .i32⟩
  | .hbm, ⟨2, _⟩ => ⟨S1x1x1000000, .i32⟩
  | .hbm, ⟨3, _⟩ => ⟨S1000000, .i32⟩
  | .hbm, ⟨4, _⟩ => ⟨S1x1x1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .f32⟩
  | .hbm, ⟨16, _⟩ => ⟨S100000x128, .f32⟩
  | .hbm, ⟨17, _⟩ => ⟨S1000000x1, .i32⟩
  | .hbm, ⟨18, _⟩ => ⟨S100000x128, .f32⟩
  | .hbm, ⟨19, _⟩ => ⟨S_, .f32⟩
  | .hbm, ⟨20, _⟩ => ⟨S1000000, .f32⟩
  | .hbm, ⟨21, _⟩ => ⟨S_, .f32⟩
  | .hbm, ⟨22, _⟩ => ⟨S100000, .f32⟩
  | .hbm, ⟨23, _⟩ => ⟨S1000000x1, .i32⟩
  | .hbm, ⟨24, _⟩ => ⟨S100000, .f32⟩
  | .hbm, ⟨25, _⟩ => ⟨S1x1x1000000, .i32⟩
  | .hbm, ⟨26, _⟩ => ⟨S1000000, .i32⟩
  | .hbm, ⟨27, _⟩ => ⟨S1x1x1000000, .i32⟩
  | .hbm, ⟨28, _⟩ => ⟨S1000000, .i32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .f32⟩
  | .hbm, ⟨38, _⟩ => ⟨S_, .f32⟩
  | .hbm, ⟨39, _⟩ => ⟨S100000x128, .f32⟩
  | .hbm, ⟨40, _⟩ => ⟨S1000000x1, .i32⟩
  | .hbm, ⟨41, _⟩ => ⟨S100000x128, .f32⟩
  | .hbm, ⟨42, _⟩ => ⟨S_, .f32⟩
  | .hbm, ⟨43, _⟩ => ⟨S1000000, .f32⟩
  | .hbm, ⟨44, _⟩ => ⟨S_, .f32⟩
  | .hbm, ⟨45, _⟩ => ⟨S100000, .f32⟩
  | .hbm, ⟨46, _⟩ => ⟨S1000000x1, .i32⟩
  | .hbm, ⟨47, _⟩ => ⟨S100000, .f32⟩
  | .hbm, ⟨48, _⟩ => ⟨S1x1x1000000, .i32⟩
  | .hbm, ⟨49, _⟩ => ⟨S1000000, .i32⟩
  | .hbm, ⟨50, _⟩ => ⟨S1x1x1000000, .i32⟩
  | .hbm, ⟨51, _⟩ => ⟨S1000000, .i32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x128, .f32⟩
  | .hbm, ⟨61, _⟩ => ⟨S_, .f32⟩
  | .hbm, ⟨62, _⟩ => ⟨S100000x128, .f32⟩
  | .hbm, ⟨63, _⟩ => ⟨S1000000x1, .i32⟩
  | .hbm, ⟨64, _⟩ => ⟨S100000x128, .f32⟩
  | .hbm, ⟨65, _⟩ => ⟨S_, .f32⟩
  | .hbm, ⟨66, _⟩ => ⟨S1000000, .f32⟩
  | .hbm, ⟨67, _⟩ => ⟨S_, .f32⟩
  | .hbm, ⟨68, _⟩ => ⟨S100000, .f32⟩
  | .hbm, ⟨69, _⟩ => ⟨S1000000x1, .i32⟩
  | .hbm, ⟨70, _⟩ => ⟨S100000, .f32⟩
  | .hbm, ⟨71, _⟩ => ⟨S100000x1x128, .f32⟩
  | .hbm, ⟨72, _⟩ => ⟨S100000x1x128, .f32⟩
  | .hbm, ⟨73, _⟩ => ⟨S100000x1x128, .f32⟩
  | .hbm, ⟨74, _⟩ => ⟨S100000x3x128, .f32⟩
  | .hbm, ⟨75, _⟩ => ⟨S100000x1, .f32⟩
  | .hbm, ⟨76, _⟩ => ⟨S100000x1, .f32⟩
  | .hbm, ⟨77, _⟩ => ⟨S100000x1, .f32⟩
  | .hbm, ⟨78, _⟩ => ⟨S100000x3, .f32⟩
  | .hbm, ⟨79, _⟩ => ⟨S100000x512, .f32⟩
  | .local _ .vmem, ⟨0, _⟩ => ⟨S2000x128, .f32⟩
  | .local _ .vmem, ⟨1, _⟩ => ⟨S2000x128, .f32⟩
  | .local _ .vmem, ⟨2, _⟩ => ⟨S2000x3x128, .f32⟩
  | .local _ .vmem, ⟨3, _⟩ => ⟨S2000x3x128, .f32⟩
  | .local _ .vmem, ⟨4, _⟩ => ⟨S2000x3, .f32⟩
  | .local _ .vmem, ⟨5, _⟩ => ⟨S2000x3, .f32⟩
  | .local _ .vmem, ⟨6, _⟩ => ⟨S2000x512, .f32⟩
  | .local _ .vmem, ⟨7, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_cst_12 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S3x2x1000000_S1x1x1000000_0_0_0 : S3x2x1000000.Slices ![0, 0, 0] S1x1x1000000
  shapeCasts_S1x1x1000000_S1000000 : S1x1x1000000.ShapeCasts S1000000
  slices_S3x2x1000000_S1x1x1000000_0_1_0 : S3x2x1000000.Slices ![0, 1, 0] S1x1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  slices_S3x2x1000000_S1x1x1000000_1_0_0 : S3x2x1000000.Slices ![1, 0, 0] S1x1x1000000
  slices_S3x2x1000000_S1x1x1000000_1_1_0 : S3x2x1000000.Slices ![1, 1, 0] S1x1x1000000
  slices_S3x2x1000000_S1x1x1000000_2_0_0 : S3x2x1000000.Slices ![2, 0, 0] S1x1x1000000
  slices_S3x2x1000000_S1x1x1000000_2_1_0 : S3x2x1000000.Slices ![2, 1, 0] S1x1x1000000
  bcast_S100000x128_S100000x1x128_0_2 : S100000x128.BroadcastsInDim S100000x1x128 (![0, 2] : Fin 2 → Fin S100000x1x128.rank)
  concatenates_S100000x1x128_S100000x1x128_S100000x1x128_S100000x3x128_d1 : Shape.Concatenates [S100000x1x128, S100000x1x128, S100000x1x128] S100000x3x128 1
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  inb_S2000x128_S2000x128_0_0 : ∀ a, (![0, 0] : Fin 2 → Nat) a + S2000x128.size a ≤ S2000x128.size a
  h_S2000x128 : 0 < S2000x128.numel
  inb_S2000x3x128_S2000x3x128_0_0_0 : ∀ a, (![0, 0, 0] : Fin 3 → Nat) a + S2000x3x128.size a ≤ S2000x3x128.size a
  h_S2000x3x128 : 0 < S2000x3x128.numel
  shapeCasts_S2000x3x128_S2000x3x128 : S2000x3x128.ShapeCasts S2000x3x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  shapeCasts_S2000x3_S2000x3x1 : S2000x3.ShapeCasts S2000x3x1
  shapeCasts_S2000x3x1_S2000x3x1 : S2000x3x1.ShapeCasts S2000x3x1
  broadcasts_S2000x3x1_S2000x3x128 : S2000x3x1.Broadcasts S2000x3x128
  inb_S2000x512_S2000x128_0_0 : ∀ a, (![0, 0] : Fin 2 → Nat) a + S2000x128.size a ≤ S2000x512.size a
  slices_S2000x3x128_o0_0_0_S2000x1x128 : S2000x3x128.Slices ![0, 0, 0] S2000x1x128
  shapeCasts_S2000x1x128_S2000x128 : S2000x1x128.ShapeCasts S2000x128
  inb_S2000x512_S2000x128_0_128 : ∀ a, (![0, 128] : Fin 2 → Nat) a + S2000x128.size a ≤ S2000x512.size a
  slices_S2000x3x128_o0_1_0_S2000x1x128 : S2000x3x128.Slices ![0, 1, 0] S2000x1x128
  inb_S2000x512_S2000x128_0_256 : ∀ a, (![0, 256] : Fin 2 → Nat) a + S2000x128.size a ≤ S2000x512.size a
  slices_S2000x3x128_o0_2_0_S2000x1x128 : S2000x3x128.Slices ![0, 2, 0] S2000x1x128
  inb_S2000x512_S2000x128_0_384 : ∀ a, (![0, 384] : Fin 2 → Nat) a + S2000x128.size a ≤ S2000x512.size a
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3x128.size a ≤ S100000x3x128.size a
  hwx0_1 : ∀ i : grid0.Coords, EltTy.bits .f32 = 32 ∨ (Rect.block (s := S100000x3x128) S2000x3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S100000x3.size a
  hwx0_2 : ∀ i : grid0.Coords, EltTy.bits .f32 = 32 ∨ (Rect.block (s := S100000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S100000x512.size a
  hwx0_3 : ∀ i : grid0.Coords, EltTy.bits .f32 = 32 ∨ (Rect.block (s := S100000x512) S2000x512.size (cc0_transform_3 i) (hinb0_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S2000x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S3x2x1000000 : Shape := ⟨3, ![3, 2, 1000000]⟩
abbrev S1x1x1000000 : Shape := ⟨3, ![1, 1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S100000x512 : Shape := ⟨2, ![100000, 512]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x2x1000000, .i32⟩
  | .hbm, ⟨2, _⟩ => ⟨S1x1x1000000, .i32⟩
  | .hbm, ⟨3, _⟩ => ⟨S1000000, .i32⟩
  | .hbm, ⟨4, _⟩ => ⟨S1x1x1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .f32⟩
  | .hbm, ⟨16, _⟩ => ⟨S100000x128, .f32⟩
  | .hbm, ⟨17, _⟩ => ⟨S1000000x1, .i32⟩
  | .hbm, ⟨18, _⟩ => ⟨S100000x128, .f32⟩
  | .hbm, ⟨19, _⟩ => ⟨S_, .f32⟩
  | .hbm, ⟨20, _⟩ => ⟨S1000000, .f32⟩
  | .hbm, ⟨21, _⟩ => ⟨S_, .f32⟩
  | .hbm, ⟨22, _⟩ => ⟨S100000, .f32⟩
  | .hbm, ⟨23, _⟩ => ⟨S1000000x1, .i32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .i1⟩
  | .hbm, ⟨37, _⟩ => ⟨S100000x128, .f32⟩
  | .hbm, ⟨38, _⟩ => ⟨S100000x128, .f32⟩
  | .hbm, ⟨39, _⟩ => ⟨S1x1x1000000, .i32⟩
  | .hbm, ⟨40, _⟩ => ⟨S1000000, .i32⟩
  | .hbm, ⟨41, _⟩ => ⟨S1x1x1000000, .i32⟩
  | .hbm, ⟨42, _⟩ => ⟨S1000000, .i32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x128, .f32⟩
  | .hbm, ⟨52, _⟩ => ⟨S_, .f32⟩
  | .hbm, ⟨53, _⟩ => ⟨S100000x128, .f32⟩
  | .hbm, ⟨54, _⟩ => ⟨S1000000x1, .i32⟩
  | .hbm, ⟨55, _⟩ => ⟨S100000x128, .f32⟩
  | .hbm, ⟨56, _⟩ => ⟨S_, .f32⟩
  | .hbm, ⟨57, _⟩ => ⟨S1000000, .f32⟩
  | .hbm, ⟨58, _⟩ => ⟨S_, .f32⟩
  | .hbm, ⟨59, _⟩ => ⟨S100000, .f32⟩
  | .hbm, ⟨60, _⟩ => ⟨S1000000x1, .i32⟩
  | .hbm, ⟨61, _⟩ => ⟨S100000, .f32⟩
  | .hbm, ⟨62, _⟩ => ⟨S100000x1, .f32⟩
  | .hbm, ⟨63, _⟩ => ⟨S_, .f32⟩
  | .hbm, ⟨64, _⟩ => ⟨S100000x1, .f32⟩
  | .hbm, ⟨65, _⟩ => ⟨S100000x1, .i1⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .i1⟩
  | .hbm, ⟨74, _⟩ => ⟨S100000x128, .f32⟩
  | .hbm, ⟨75, _⟩ => ⟨S100000x128, .f32⟩
  | .hbm, ⟨76, _⟩ => ⟨S1x1x1000000, .i32⟩
  | .hbm, ⟨77, _⟩ => ⟨S1000000, .i32⟩
  | .hbm, ⟨78, _⟩ => ⟨S1x1x1000000, .i32⟩
  | .hbm, ⟨79, _⟩ => ⟨S1000000, .i32⟩
  | .hbm, ⟨80, _⟩ => ⟨S_, .i32⟩
  | .hbm, ⟨81, _⟩ => ⟨S1000000, .i32⟩
  | .hbm, ⟨82, _⟩ => ⟨S1000000, .i1⟩
  | .hbm, ⟨83, _⟩ => ⟨S_, .i32⟩
  | .hbm, ⟨84, _⟩ => ⟨S1000000, .i32⟩
  | .hbm, ⟨85, _⟩ => ⟨S1000000, .i32⟩
  | .hbm, ⟨86, _⟩ => ⟨S1000000, .i32⟩
  | .hbm, ⟨87, _⟩ => ⟨S1000000x1, .i32⟩
  | .hbm, ⟨88, _⟩ => ⟨S1000000x128, .f32⟩
  | .hbm, ⟨89, _⟩ => ⟨S_, .f32⟩
  | .hbm, ⟨90, _⟩ => ⟨S100000x128, .f32⟩
  | .hbm, ⟨91, _⟩ => ⟨S1000000x1, .i32⟩
  | .hbm, ⟨92, _⟩ => ⟨S100000x128, .f32⟩
  | .hbm, ⟨93, _⟩ => ⟨S_, .f32⟩
  | .hbm, ⟨94, _⟩ => ⟨S1000000, .f32⟩
  | .hbm, ⟨95, _⟩ => ⟨S_, .f32⟩
  | .hbm, ⟨96, _⟩ => ⟨S100000, .f32⟩
  | .hbm, ⟨97, _⟩ => ⟨S1000000x1, .i32⟩
  | .hbm, ⟨98, _⟩ => ⟨S100000, .f32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .i1⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S_, .f32⟩
  | .hbm, ⟨110, _⟩ => ⟨S100000x128, .i1⟩
  | .hbm, ⟨111, _⟩ => ⟨S100000x128, .f32⟩
  | .hbm, ⟨112, _⟩ => ⟨S100000x128, .f32⟩
  | .hbm, ⟨113, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_call1_v0 : Ref sig .tc := ⟨.hbm, 73, rfl⟩
abbrev main_call1_v1 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_c_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_19 : Ref sig .tc := ⟨.hbm, 100, rfl⟩
abbrev main_v73 : Ref sig .tc := ⟨.hbm, 101, rfl⟩
abbrev main_v74 : Ref sig .tc := ⟨.hbm, 102, rfl⟩
abbrev main_cst_20 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_21 : Ref sig .tc := ⟨.hbm, 109, rfl⟩
abbrev main_call2_v0 : Ref sig .tc := ⟨.hbm, 110, rfl⟩
abbrev main_call2_v1 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]

class Facts₀ : Prop where
  slices_S3x2x1000000_S1x1x1000000_0_0_0 : S3x2x1000000.Slices ![0, 0, 0] S1x1x1000000
  shapeCasts_S1x1x1000000_S1000000 : S1x1x1000000.ShapeCasts S1000000
  slices_S3x2x1000000_S1x1x1000000_0_1_0 : S3x2x1000000.Slices ![0, 1, 0] S1x1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x2x1000000_S1x1x1000000_1_0_0 : S3x2x1000000.Slices ![1, 0, 0] S1x1x1000000
  slices_S3x2x1000000_S1x1x1000000_1_1_0 : S3x2x1000000.Slices ![1, 1, 0] S1x1x1000000
  slices_S3x2x1000000_S1x1x1000000_2_0_0 : S3x2x1000000.Slices ![2, 0, 0] S1x1x1000000
  slices_S3x2x1000000_S1x1x1000000_2_1_0 : S3x2x1000000.Slices ![2, 1, 0] S1x1x1000000
  concatenates_S100000x128_S100000x128_S100000x128_S100000x128_S100000x512_d1 : Shape.Concatenates [S100000x128, S100000x128, S100000x128, S100000x128] S100000x512 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.LibHostLine.lean ====
/-
  A line of host operations whose joins take three or four operands.

  * `nary3_result`   : a three-operand operation leaves, in its result buffer, its function of the three operands'
                        contents (the three-operand companion of the library's four-operand lemma);
  * `cat3_congr`     : a join of three pieces of one shape with each piece replaced by an equal piece;
  * `nary_aux`       : the rewriting auxiliary of the n-operand builder, stated once here so that every module downstream
                        shares one copy.
  Imports only the Idealize library.
-/
import Idealize.ShloMosaic.Lib.StableHlo.Run

noncomputable section

namespace Cert.Lib.HostLine

open Idealize.ShloMosaic Idealize.ShloMosaic.StableHlo Idealize.SL.Sem

variable {τ : Topo} {sig : RefSig} {Val : EltTy → Type}

/-- A three-operand operation's result buffer holds its function of the three operands' contents. -/
theorem nary3_result {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Three pieces replaced by equal pieces. -/
theorem cat3_congr {α : Type} {t s : Shape} {a : Fin t.rank} (h : Shape.Concatenates [s, s, s] t a)
    {x₁ x₂ x₃ y₁ y₂ y₃ : s.Idx → α} (e₁ : x₁ = y₁) (e₂ : x₂ = y₂) (e₃ : x₃ = y₃) :
    concatenate t a [⟨s, x₁⟩, ⟨s, x₂⟩, ⟨s, x₃⟩] h = concatenate t a [⟨s, y₁⟩, ⟨s, y₂⟩, ⟨s, y₃⟩] h := by
  subst e₁ e₂ e₃; rfl

/-- Four pieces replaced by equal pieces. -/
theorem cat4_congr {α : Type} {t s : Shape} {a : Fin t.rank} (h : Shape.Concatenates [s, s, s, s] t a)
    {x₁ x₂ x₃ x₄ y₁ y₂ y₃ y₄ : s.Idx → α} (e₁ : x₁ = y₁) (e₂ : x₂ = y₂) (e₃ : x₃ = y₃) (e₄ : x₄ = y₄) :
    concatenate t a [⟨s, x₁⟩, ⟨s, x₂⟩, ⟨s, x₃⟩, ⟨s, x₄⟩] h = concatenate t a [⟨s, y₁⟩, ⟨s, y₂⟩, ⟨s, y₃⟩, ⟨s, y₄⟩] h := by
  subst e₁ e₂ e₃ e₄; rfl

/-- The n-operand builder's rewriting auxiliary, stated once. -/
theorem nary_aux : True := by
  have := @StableHlo.nary.congr_simp
  trivial

end Cert.Lib.HostLine

end
-- ==== Proof.KernelKit.lean ====
/-
  The launch side of the printed kernel's one region, stated once for the frame and for the value:

  * `V`: what each TensorCore buffer holds when the region is entered — the launch memory after the
    host operations that precede the region (the six slices of the edge list, the three gathers and six
    scatter-adds, and the two stackings along a new middle axis);
  * `hmain`: @main is those host operations followed by the region;
  * `V_main_arg0`, `V_main_arg1`: no host operation writes an argument array, so the region finds both
    as launched;
  * `iblk`: block `t` of window `w`'s array, 2000 consecutive rows starting at row 2000·t;
  * `before0_W_of`: an input window's staging buffer holds that block whenever the body runs;
  * `frame_of`: a run that ends with every array at the pipeline's account of it leaves the two
    argument arrays as launched (the node features are window 0's array, never written back; the edge
    list is staged by no window).
-/
import proofs.«121044_j28295244546274_1_alg».proof.Proof.Gen.Kernel.Launch
import proofs.«121044_j28295244546274_1_alg».proof.Proof.Gen.Kernel.Skeleton
import proofs.«121044_j28295244546274_1_alg».proof.Proof.Gen.Kernel.Points
import proofs.«121044_j28295244546274_1_alg».proof.Proof.LibHostLine
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the node features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes the edge list: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The node-feature window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The stacked-sums window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The stacked-counts window's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run ending with every array of the pipeline at the pipeline's account of it, and every other unscoped buffer as
    the region found it, leaves both argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The staging memrefs the body is called with -/

/-- One staging buffer of the output window, through which its contents are stated. -/
abbrev VO0_3 : View sig .tc .vmem S2000x512 .f32 := (Memref.whole cc0_stg3_0 : Memref sig .tc .vmem S2000x512 .f32).view
/-- Each window's current staging memref at point `t`, spelled as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x3x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x512 .f32 := win0_3.stage (cfg0.slots t 3)
abbrev hs0_3 (t : Fin cfg0.N) : (ms0_3 t).IsWhole := hstage0_3 ((cfg0.slots t 3).cast nbuf0_3)

end Cert.Kernel.Region

end
-- ==== Proof.KernelRun.lean ====
/-
  The body of the printed kernel run once, on any whole staging memrefs: handed the three input buffers at their
  contents and the output buffer at anything, it loads the three inputs, computes the masked mean, and stores four
  column bands of 128 lanes into the output buffer — the node features into lanes 0…127 and edge type t's mean into
  lanes 128·(t+1)…128·(t+2)−1 (its four loads of the output buffer read values nothing uses) — and returns the
  inputs as they were. The stores are kept as a list of pieces, found when the run hands the buffer back.
-/
import proofs.«121044_j28295244546274_1_alg».proof.Proof.KernelKit

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), with the proof that the body
    runs to a continuation holding the inputs' buffers as they were and the output's with those pieces written. -/
noncomputable def kernelRun0_A (c : Dev nD) (i : grid0.Coords)
    (arg1 : Memref sig .tc .vmem S2000x128 .f32) (harg1 : arg1.IsWhole)
    (arg2 : Memref sig .tc .vmem S2000x3x128 .f32) (harg2 : arg2.IsWhole)
    (arg3 : Memref sig .tc .vmem S2000x3 .f32) (harg3 : arg3.IsWhole)
    (arg4 : Memref sig .tc .vmem S2000x512 .f32) (harg4 : arg4.IsWhole)
    (x0 : Vec F S2000x128 .f32) (x1 : Vec F S2000x3x128 .f32) (x2 : Vec F S2000x3 .f32) :
    { L3 : List (View.Piece (Elt F) S2000x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__gnn_concat_kernel i arg1 harg1 arg2 harg2 arg3 harg3 arg4 harg4) K } := by
  refine ⟨?_, fun E K => ?run⟩
  case run =>
    simp only [cc0__gnn_concat_kernel_eq_skeleton]; unfold cc0__gnn_concat_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Region

end
-- ==== Proof.KernelFrame.lean ====
/-
  The frame of the kernel program as printed: every weakly fair execution of @main terminates without a fault and leaves
  the node features and the edge list as launched.

  The proof data says what each staging buffer holds after the body at grid point `t`: the three input windows still
  hold block `t` of their arrays (rows 2000·t … 2000·t+1999 of the node features, of the stacked sums and of the stacked
  counts), and the output window holds what the body's four band stores leave (`outsAt0`). The four stores tile the
  2000×512 output block (four bands of 128 lanes), so the buffer's earlier contents do not matter. The body at a point is
  the run of the body on that point's staging memrefs; the region invariant (the scoped rest and the generator
  register) passes through untouched, and the core owes no signal.
-/
import proofs.«121044_j28295244546274_1_alg».proof.Proof.KernelRun

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four band stores tile the output block: every element of it lies in one of them. -/
theorem cover0_A_3 (c : Dev nD) (i : grid0.Coords)
    (arg1 : Memref sig .tc .vmem S2000x128 .f32) (harg1 : arg1.IsWhole)
    (arg2 : Memref sig .tc .vmem S2000x3x128 .f32) (harg2 : arg2.IsWhole)
    (arg3 : Memref sig .tc .vmem S2000x3 .f32) (harg3 : arg3.IsWhole)
    (arg4 : Memref sig .tc .vmem S2000x512 .f32) (harg4 : arg4.IsWhole)
    (x0 : Vec F S2000x128 .f32) (x1 : Vec F S2000x3x128 .f32) (x2 : Vec F S2000x3 .f32) (y : S2000x512.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S2000x128.size (by sl_kernel_rfl) y

/-- What the run leaves in the output's staging buffer: its pieces read back over anything. -/
def out0_A_3 (c : Dev nD) (i : grid0.Coords)
    (arg1 : Memref sig .tc .vmem S2000x128 .f32) (harg1 : arg1.IsWhole)
    (arg2 : Memref sig .tc .vmem S2000x3x128 .f32) (harg2 : arg2.IsWhole)
    (arg3 : Memref sig .tc .vmem S2000x3 .f32) (harg3 : arg3.IsWhole)
    (arg4 : Memref sig .tc .vmem S2000x512 .f32) (harg4 : arg4.IsWhole)
    (x0 : Vec F S2000x128 .f32) (x1 : Vec F S2000x3x128 .f32) (x2 : Vec F S2000x3 .f32) : Vec F S2000x512 .f32 :=
  VO0_3.read (Elt F) (VO0_3.writes (Elt F) VO0_3.junk (kernelRun0_A c i arg1 harg1 arg2 harg2 arg3 harg3 arg4 harg4 x0 x1 x2).1)

/-! ## What the output holds after each point -/

/-- The output's staging buffer after the body at point `t`: the run's contents at the point's memrefs and input blocks. -/
def outsAt0 (c : Dev nD) (t : Fin cfg0.N) : Vec F S2000x512 .f32 :=
  out0_A_3 c (grid0.coords t) (ms0_0 t) (hs0_0 t) (ms0_1 t) (hs0_1 t) (ms0_2 t) (hs0_2 t) (ms0_3 t) (hs0_3 t)
    (iblk m c 0 t) (iblk m c 1 t) (iblk m c 2 t)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the proof data accounts for and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Region

end
-- ==== Proof.KernelIdealKit.lean ====
/-
  The launch side of the idealized kernel's one region, stated once for the frame and for the value:

  * `V`: what each TensorCore buffer holds when the region is entered — the launch memory after the
    host operations that precede the region (the six slices of the edge list, the three gathers and six
    scatter-adds, and the two stackings along a new middle axis);
  * `hmain`: @main is those host operations followed by the region;
  * `V_main_arg0`, `V_main_arg1`: no host operation writes an argument array, so the region finds both
    as launched;
  * `iblk`: block `t` of window `w`'s array, 2000 consecutive rows starting at row 2000·t;
  * `before0_W_of`: an input window's staging buffer holds that block whenever the body runs;
  * `frame_of`: a run that ends with every array at the pipeline's account of it leaves the two
    argument arrays as launched (the node features are window 0's array, never written back; the edge
    list is staged by no window).
-/
import proofs.«121044_j28295244546274_1_alg».proof.Proof.Gen.KernelIdeal.Launch
import proofs.«121044_j28295244546274_1_alg».proof.Proof.Gen.KernelIdeal.Skeleton
import proofs.«121044_j28295244546274_1_alg».proof.Proof.Gen.KernelIdeal.Points
import proofs.«121044_j28295244546274_1_alg».proof.Proof.LibHostLine
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the host operations. -/
abbrev V (c : Dev nD) (b : Ref sig .tc) : Buf (Elt F) ((c : Thread nD τ).loc b) := StableHlo.after hostOps0 (fun b => m (c, b)) b

/-- No host operation allocates a buffer of its own. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the node features: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes the edge list: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The node-feature window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The stacked-sums window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The stacked-counts window's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run ending with every array of the pipeline at the pipeline's account of it, and every other unscoped buffer as
    the region found it, leaves both argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The staging memrefs the body is called with -/

/-- One staging buffer of the output window, through which its contents are stated. -/
abbrev VO0_3 : View sig .tc .vmem S2000x512 .f32 := (Memref.whole cc0_stg3_0 : Memref sig .tc .vmem S2000x512 .f32).view
/-- Each window's current staging memref at point `t`, spelled as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x3x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x512 .f32 := win0_3.stage (cfg0.slots t 3)
abbrev hs0_3 (t : Fin cfg0.N) : (ms0_3 t).IsWhole := hstage0_3 ((cfg0.slots t 3).cast nbuf0_3)

end Cert.KernelIdeal.Region

end
-- ==== Proof.KernelIdealRun.lean ====
/-
  The body of the idealized kernel run once, on any whole staging memrefs: handed the three input buffers at their
  contents and the output buffer at anything, it loads the three inputs, computes the masked mean, and stores four
  column bands of 128 lanes into the output buffer — the node features into lanes 0…127 and edge type t's mean into
  lanes 128·(t+1)…128·(t+2)−1 (its four loads of the output buffer read values nothing uses) — and returns the
  inputs as they were. The stores are kept as a list of pieces, found when the run hands the buffer back.
-/
import proofs.«121044_j28295244546274_1_alg».proof.Proof.KernelIdealKit

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), with the proof that the body
    runs to a continuation holding the inputs' buffers as they were and the output's with those pieces written. -/
noncomputable def kernelRun0_A (c : Dev nD) (i : grid0.Coords)
    (arg1 : Memref sig .tc .vmem S2000x128 .f32) (harg1 : arg1.IsWhole)
    (arg2 : Memref sig .tc .vmem S2000x3x128 .f32) (harg2 : arg2.IsWhole)
    (arg3 : Memref sig .tc .vmem S2000x3 .f32) (harg3 : arg3.IsWhole)
    (arg4 : Memref sig .tc .vmem S2000x512 .f32) (harg4 : arg4.IsWhole)
    (x0 : Vec F S2000x128 .f32) (x1 : Vec F S2000x3x128 .f32) (x2 : Vec F S2000x3 .f32) :
    { L3 : List (View.Piece (Elt F) S2000x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__gnn_concat_kernel i arg1 harg1 arg2 harg2 arg3 harg3 arg4 harg4) K } := by
  refine ⟨?_, fun E K => ?run⟩
  case run =>
    simp only [cc0__gnn_concat_kernel_eq_skeleton]; unfold cc0__gnn_concat_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Region

end
-- ==== Proof.KernelIdealFrame.lean ====
/-
  The frame of the idealized kernel program: every weakly fair execution of @main terminates without a fault and leaves
  the node features and the edge list as launched.

  The proof data says what each staging buffer holds after the body at grid point `t`: the three input windows still
  hold block `t` of their arrays (rows 2000·t … 2000·t+1999 of the node features, of the stacked sums and of the stacked
  counts), and the output window holds what the body's four band stores leave (`outsAt0`). The four stores tile the
  2000×512 output block (four bands of 128 lanes), so the buffer's earlier contents do not matter. The body at a point is
  the run of the body on that point's staging memrefs; the region invariant (the scoped rest and the generator
  register) passes through untouched, and the core owes no signal.
-/
import proofs.«121044_j28295244546274_1_alg».proof.Proof.KernelIdealRun

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four band stores tile the output block: every element of it lies in one of them. -/
theorem cover0_A_3 (c : Dev nD) (i : grid0.Coords)
    (arg1 : Memref sig .tc .vmem S2000x128 .f32) (harg1 : arg1.IsWhole)
    (arg2 : Memref sig .tc .vmem S2000x3x128 .f32) (harg2 : arg2.IsWhole)
    (arg3 : Memref sig .tc .vmem S2000x3 .f32) (harg3 : arg3.IsWhole)
    (arg4 : Memref sig .tc .vmem S2000x512 .f32) (harg4 : arg4.IsWhole)
    (x0 : Vec F S2000x128 .f32) (x1 : Vec F S2000x3x128 .f32) (x2 : Vec F S2000x3 .f32) (y : S2000x512.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S2000x128.size (by sl_kernel_rfl) y

/-- What the run leaves in the output's staging buffer: its pieces read back over anything. -/
def out0_A_3 (c : Dev nD) (i : grid0.Coords)
    (arg1 : Memref sig .tc .vmem S2000x128 .f32) (harg1 : arg1.IsWhole)
    (arg2 : Memref sig .tc .vmem S2000x3x128 .f32) (harg2 : arg2.IsWhole)
    (arg3 : Memref sig .tc .vmem S2000x3 .f32) (harg3 : arg3.IsWhole)
    (arg4 : Memref sig .tc .vmem S2000x512 .f32) (harg4 : arg4.IsWhole)
    (x0 : Vec F S2000x128 .f32) (x1 : Vec F S2000x3x128 .f32) (x2 : Vec F S2000x3 .f32) : Vec F S2000x512 .f32 :=
  VO0_3.read (Elt F) (VO0_3.writes (Elt F) VO0_3.junk (kernelRun0_A c i arg1 harg1 arg2 harg2 arg3 harg3 arg4 harg4 x0 x1 x2).1)

/-! ## What the output holds after each point -/

/-- The output's staging buffer after the body at point `t`: the run's contents at the point's memrefs and input blocks. -/
def outsAt0 (c : Dev nD) (t : Fin cfg0.N) : Vec F S2000x512 .f32 :=
  out0_A_3 c (grid0.coords t) (ms0_0 t) (hs0_0 t) (ms0_1 t) (hs0_1 t) (ms0_2 t) (hs0_2 t) (ms0_3 t) (hs0_3 t)
    (iblk m c 0 t) (iblk m c 1 t) (iblk m c 2 t)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the proof data accounts for and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Region

end
-- ==== Proof.MeanConcat.lean ====
/-
  What both programs compute, as functions of whole arrays, index by index.

  For every node r and every edge type t the programs hold the sum of the features gathered along the type's edges
  into r (a row of 128 lanes) and the number of those edges (a count). One entry of the type's mean is

      mean1 count sum  =  if count > 0 then sum / max count 1 else 0

  (`select` on the comparison's bit; the quotient and the maximum are the float operations of the instance). The
  result is a 100000 × 512 array: lanes 0…127 of row r are the node's own features, and lanes 128·(t+1) … 128·(t+2)−1
  are type t's mean for r.

  * `stacked x S C`: the result from the sums stacked as [100000, 3, 128] and the counts stacked as [100000, 3] — lane j ≥ 128
    reads type j / 128 − 1 at lane j % 128;
  * `perType x s0 s1 s2 c0 c1 c2`: the result from the three sums and three counts kept apart;
  * `stacked_eq_perType`: when S and C are the three sums and the three counts laid side by side along the middle axis,
    the two are one function. No arithmetic law is used: only which entry each lane reads.
-/
import Idealize.ShloMosaic.PureOps.Ideal
import Idealize.ShloMosaic.Lib.ValueIdx

noncomputable section

namespace Cert.MeanConcat

open Idealize.ShloMosaic Idealize.ShloMosaic.ValueIdx

/-- The node features, and each edge type's sums: one row of 128 lanes per node. -/
abbrev Rows : Shape := ⟨2, ![100000, 128]⟩
/-- Each edge type's counts: one per node. -/
abbrev Cnt : Shape := ⟨1, ![100000]⟩
/-- The three types' sums side by side. -/
abbrev Rows3 : Shape := ⟨3, ![100000, 3, 128]⟩
/-- The three types' counts side by side. -/
abbrev Cnt3 : Shape := ⟨2, ![100000, 3]⟩
/-- The result. -/
abbrev Out : Shape := ⟨2, ![100000, 512]⟩

variable {F : FTy → Type} [FloatOps F]

/-- One entry of a mean: the sum over the count where the count is positive (the divisor never below one), zero elsewhere. -/
def mean1 (cn s : F .f32) : F .f32 :=
  Scalar.select (FloatOps.cmpf .ogt cn (FloatOps.ofBits .f32 0x00000000#32))
    (FloatOps.divf s (FloatOps.maximumf cn (FloatOps.ofBits .f32 0x3F800000#32)))
    (FloatOps.ofBits .f32 0x00000000#32)

/-- The same entry with the host's quotient. -/
def mean1Host (cn s : F .f32) : F .f32 :=
  Scalar.select (FloatOps.cmpf .ogt cn (FloatOps.ofBits .f32 0x00000000#32))
    (FloatOps.hostDivf s (FloatOps.maximumf cn (FloatOps.ofBits .f32 0x3F800000#32)))
    (FloatOps.ofBits .f32 0x00000000#32)

/-- On the extended reals the host's quotient is the quotient. -/
theorem mean1Host_eq (cn s : Ideal .f32) : mean1Host (F := Ideal) cn s = mean1 (F := Ideal) cn s := rfl

/-- The result from stacked sums and counts. -/
def stacked (x : Rows.Idx → F .f32) (S : Rows3.Idx → F .f32) (C : Cnt3.Idx → F .f32) : Out.Idx → F .f32 := fun i =>
  if h : (i 1).val < 128 then x (ix2 (i 0) ⟨(i 1).val, h⟩)
  else mean1 (C (ix2 (i 0) (⟨(i 1).val / 128 - 1, by have := idx2_lt1 i; omega⟩ : Fin 3)))
    (S (ix3 (i 0) (⟨(i 1).val / 128 - 1, by have := idx2_lt1 i; omega⟩ : Fin 3) (⟨(i 1).val % 128, Nat.mod_lt _ (by decide)⟩ : Fin 128)))

/-- `stacked` at a lane of the first band: the node's own feature. -/
theorem stacked_lt (x : Rows.Idx → F .f32) (S : Rows3.Idx → F .f32) (C : Cnt3.Idx → F .f32)
    (r : Fin 100000) (q : Fin 512) (l : Fin 128) (h : q.val = l.val) : stacked x S C (ix2 r q) = x (ix2 r l) := by
  have hl := l.isLt
  unfold stacked
  rw [dif_pos (show ((ix2 r q : Out.Idx) 1).val < 128 from by show q.val < 128; omega)]
  refine congrArg x (funext fun a => ?_)
  match a with
  | ⟨0, _⟩ => rfl
  | ⟨1, _⟩ => exact Fin.ext h

/-- `stacked` at lane `l` of band `k + 1`: type `k`'s mean. -/
theorem stacked_band (x : Rows.Idx → F .f32) (S : Rows3.Idx → F .f32) (C : Cnt3.Idx → F .f32)
    (r : Fin 100000) (q : Fin 512) (k : Fin 3) (l : Fin 128) (h : q.val = 128 * (k.val + 1) + l.val) :
    stacked x S C (ix2 r q) = mean1 (C (ix2 r k)) (S (ix3 r k l)) := by
  have hl := l.isLt
  have hk := k.isLt
  unfold stacked
  rw [dif_neg (show ¬((ix2 r q : Out.Idx) 1).val < 128 from by show ¬q.val < 128; omega)]
  refine congr (congrArg mean1 (congrArg C (funext fun a => ?_))) (congrArg S (funext fun a => ?_))
  · match a with
    | ⟨0, _⟩ => rfl
    | ⟨1, _⟩ => exact Fin.ext (by show q.val / 128 - 1 = k.val; omega)
  · match a with
    | ⟨0, _⟩ => rfl
    | ⟨1, _⟩ => exact Fin.ext (by show q.val / 128 - 1 = k.val; omega)
    | ⟨2, _⟩ => exact Fin.ext (by show q.val % 128 = l.val; omega)

/-- The result from the three types' sums and counts kept apart. -/
def perType (x s0 s1 s2 : Rows.Idx → F .f32) (c0 c1 c2 : Cnt.Idx → F .f32) : Out.Idx → F .f32 := fun i =>
  if h : (i 1).val < 128 then x (ix2 (i 0) ⟨(i 1).val, h⟩)
  else if h1 : (i 1).val < 256 then mean1 (c0 (ix1 (i 0))) (s0 (ix2 (i 0) (⟨(i 1).val - 128, by omega⟩ : Fin 128)))
  else if h2 : (i 1).val < 384 then mean1 (c1 (ix1 (i 0))) (s1 (ix2 (i 0) (⟨(i 1).val - 256, by omega⟩ : Fin 128)))
  else mean1 (c2 (ix1 (i 0))) (s2 (ix2 (i 0) (⟨(i 1).val - 384, by have := idx2_lt1 i; omega⟩ : Fin 128)))

/-- `perType` at a lane of the first band: the node's own feature. -/
theorem perType_lt (x s0 s1 s2 : Rows.Idx → F .f32) (c0 c1 c2 : Cnt.Idx → F .f32)
    (r : Fin 100000) (q : Fin 512) (l : Fin 128) (h : q.val = l.val) :
    perType x s0 s1 s2 c0 c1 c2 (ix2 r q) = x (ix2 r l) := by
  have hl := l.isLt
  unfold perType
  rw [dif_pos (show ((ix2 r q : Out.Idx) 1).val < 128 from by show q.val < 128; omega)]
  refine congrArg x (funext fun a => ?_)
  match a with
  | ⟨0, _⟩ => rfl
  | ⟨1, _⟩ => exact Fin.ext h

/-- `perType` at lane `l` of band 1: type 0's mean. -/
theorem perType_band0 (x s0 s1 s2 : Rows.Idx → F .f32) (c0 c1 c2 : Cnt.Idx → F .f32)
    (r : Fin 100000) (q : Fin 512) (l : Fin 128) (h : q.val = 128 + l.val) :
    perType x s0 s1 s2 c0 c1 c2 (ix2 r q) = mean1 (c0 (ix1 r)) (s0 (ix2 r l)) := by
  have hl := l.isLt
  unfold perType
  rw [dif_neg (show ¬((ix2 r q : Out.Idx) 1).val < 128 from by show ¬q.val < 128; omega), dif_pos (show ((ix2 r q : Out.Idx) 1).val < 256 from by show q.val < 256; omega)]
  refine congrArg (mean1 (c0 (ix1 r))) (congrArg s0 (funext fun a => ?_))
  match a with
  | ⟨0, _⟩ => rfl
  | ⟨1, _⟩ => exact Fin.ext (by show q.val - 128 = l.val; omega)

/-- `perType` at lane `l` of band 2: type 1's mean. -/
theorem perType_band1 (x s0 s1 s2 : Rows.Idx → F .f32) (c0 c1 c2 : Cnt.Idx → F .f32)
    (r : Fin 100000) (q : Fin 512) (l : Fin 128) (h : q.val = 256 + l.val) :
    perType x s0 s1 s2 c0 c1 c2 (ix2 r q) = mean1 (c1 (ix1 r)) (s1 (ix2 r l)) := by
  have hl := l.isLt
  unfold perType
  rw [dif_neg (show ¬((ix2 r q : Out.Idx) 1).val < 128 from by show ¬q.val < 128; omega), dif_neg (show ¬((ix2 r q : Out.Idx) 1).val < 256 from by show ¬q.val < 256; omega), dif_pos (show ((ix2 r q : Out.Idx) 1).val < 384 from by show q.val < 384; omega)]
  refine congrArg (mean1 (c1 (ix1 r))) (congrArg s1 (funext fun a => ?_))
  match a with
  | ⟨0, _⟩ => rfl
  | ⟨1, _⟩ => exact Fin.ext (by show q.val - 256 = l.val; omega)

/-- `perType` at lane `l` of band 3: type 2's mean. -/
theorem perType_band2 (x s0 s1 s2 : Rows.Idx → F .f32) (c0 c1 c2 : Cnt.Idx → F .f32)
    (r : Fin 100000) (q : Fin 512) (l : Fin 128) (h : q.val = 384 + l.val) :
    perType x s0 s1 s2 c0 c1 c2 (ix2 r q) = mean1 (c2 (ix1 r)) (s2 (ix2 r l)) := by
  have hl := l.isLt
  unfold perType
  rw [dif_neg (show ¬((ix2 r q : Out.Idx) 1).val < 128 from by show ¬q.val < 128; omega), dif_neg (show ¬((ix2 r q : Out.Idx) 1).val < 256 from by show ¬q.val < 256; omega), dif_neg (show ¬((ix2 r q : Out.Idx) 1).val < 384 from by show ¬q.val < 384; omega)]
  refine congrArg (mean1 (c2 (ix1 r))) (congrArg s2 (funext fun a => ?_))
  match a with
  | ⟨0, _⟩ => rfl
  | ⟨1, _⟩ => exact Fin.ext (by show q.val - 384 = l.val; omega)

/-- Stacked sums and counts that ARE the three types' side by side give the per-type result. -/
theorem stacked_eq_perType (x s0 s1 s2 : Rows.Idx → F .f32) (c0 c1 c2 : Cnt.Idx → F .f32)
    (S : Rows3.Idx → F .f32) (C : Cnt3.Idx → F .f32)
    (hS0 : ∀ (r : Fin 100000) (l : Fin 128), S (ix3 r (0 : Fin 3) l) = s0 (ix2 r l))
    (hS1 : ∀ (r : Fin 100000) (l : Fin 128), S (ix3 r (1 : Fin 3) l) = s1 (ix2 r l))
    (hS2 : ∀ (r : Fin 100000) (l : Fin 128), S (ix3 r (2 : Fin 3) l) = s2 (ix2 r l))
    (hC0 : ∀ r : Fin 100000, C (ix2 r (0 : Fin 3)) = c0 (ix1 r))
    (hC1 : ∀ r : Fin 100000, C (ix2 r (1 : Fin 3)) = c1 (ix1 r))
    (hC2 : ∀ r : Fin 100000, C (ix2 r (2 : Fin 3)) = c2 (ix1 r)) :
    stacked x S C = perType x s0 s1 s2 c0 c1 c2 := by
  funext i
  have hi := idx2_lt1 i
  unfold stacked perType
  by_cases h : (i 1).val < 128
  · rw [dif_pos h, dif_pos h]
  · rw [dif_neg h, dif_neg h]
    by_cases h1 : (i 1).val < 256
    · rw [dif_pos h1]
      have ek : (⟨(i 1).val / 128 - 1, by omega⟩ : Fin 3) = (0 : Fin 3) := Fin.ext (by show (i 1).val / 128 - 1 = 0; omega)
      have el : (⟨(i 1).val % 128, Nat.mod_lt _ (by decide)⟩ : Fin 128) = ⟨(i 1).val - 128, by omega⟩ := Fin.ext (by show (i 1).val % 128 = (i 1).val - 128; omega)
      rw [ek, el]
      exact congr (congrArg mean1 (hC0 _)) (hS0 _ _)
    · rw [dif_neg h1]
      by_cases h2 : (i 1).val < 384
      · rw [dif_pos h2]
        have ek : (⟨(i 1).val / 128 - 1, by omega⟩ : Fin 3) = (1 : Fin 3) := Fin.ext (by show (i 1).val / 128 - 1 = 1; omega)
        have el : (⟨(i 1).val % 128, Nat.mod_lt _ (by decide)⟩ : Fin 128) = ⟨(i 1).val - 256, by omega⟩ := Fin.ext (by show (i 1).val % 128 = (i 1).val - 256; omega)
        rw [ek, el]
        exact congr (congrArg mean1 (hC1 _)) (hS1 _ _)
      · rw [dif_neg h2]
        have ek : (⟨(i 1).val / 128 - 1, by omega⟩ : Fin 3) = (2 : Fin 3) := Fin.ext (by show (i 1).val / 128 - 1 = 2; omega)
        have el : (⟨(i 1).val % 128, Nat.mod_lt _ (by decide)⟩ : Fin 128) = ⟨(i 1).val - 384, by omega⟩ := Fin.ext (by show (i 1).val % 128 = (i 1).val - 384; omega)
        rw [ek, el]
        exact congr (congrArg mean1 (hC2 _)) (hS2 _ _)

end Cert.MeanConcat

end
-- ==== Proof.LibMidAxis.lean ====
/-
  Rank-3 blocks `[A, B, C]` whose two leading axes are flattened into rows, read at an index.

  * `cast_abc_rc`   : the cast `[A, B, C] → [R, C]` (`R = A·B`) at row `r = p·B + k`, column `e`, is the block at `(p, k, e)`;
  * `cast_rc_abc`   : the cast back `[R, C] → [A, B, C]` at `(p, k, e)` is the matrix at `(p·B + k, e)`;
  * `flag_col_apply`: a flag array `[A, B]` cast to `[A, B, 1]` and broadcast along a third axis of extent `C` reads, at
                      `(p, k, e)`, the flag at `(p, k)` (jax's `mask[:, :, None]` against an `[A, B, C]` block);
  * `lift_mid`, `sum_mid_apply`: a `vector.multi_reduction <add>` over the MIDDLE axis from the zero accumulator, at
                      `(p, o)` and at the extended reals, is the sum over `k : Fin B` of the block at `(p, k, o)`.
  Over any element type where no arithmetic is involved; imports only the Idealize library.
-/
import Idealize.ShloMosaic.Lib.Pipeline.Value
import Idealize.ShloMosaic.Lib.ValueIdx
import Idealize.ShloMosaic.PureOps.Ideal.Laws

noncomputable section

namespace Cert.Lib.MidAxis

open Idealize.ShloMosaic Idealize.ShloMosaic.ValueIdx

variable {α : Type}

/-- Flattening the two leading axes keeps the row-major position: row `p·B + k` of the matrix is `(p, k)` of the block. -/
theorem cast_abc_rc {A B C R : ℕ} (x : (⟨3, ![A, B, C]⟩ : Shape).Idx → α)
    (h : (⟨3, ![A, B, C]⟩ : Shape).ShapeCasts ⟨2, ![R, C]⟩) (p : Fin A) (k : Fin B) (e : Fin C) (r : Fin R)
    (hr : r.val = p.val * B + k.val) :
    shapeCast ⟨2, ![R, C]⟩ x h (ix2 r e) = x (ix3 p k e) :=
  shapeCast_apply x h (ix2 r e) (ix3 p k e) (by
    rw [Shape.rowMajor_val_three, Shape.rowMajor_val_two]
    show (p.val * B + k.val) * C + e.val = r.val * C + e.val
    rw [hr])

/-- The cast back: `(p, k)` of the block is row `p·B + k` of the matrix. -/
theorem cast_rc_abc {A B C R : ℕ} (x : (⟨2, ![R, C]⟩ : Shape).Idx → α)
    (h : (⟨2, ![R, C]⟩ : Shape).ShapeCasts ⟨3, ![A, B, C]⟩) (p : Fin A) (k : Fin B) (e : Fin C) (r : Fin R)
    (hr : r.val = p.val * B + k.val) :
    shapeCast ⟨3, ![A, B, C]⟩ x h (ix3 p k e) = x (ix2 r e) :=
  shapeCast_apply x h (ix3 p k e) (ix2 r e) (by
    rw [Shape.rowMajor_val_three, Shape.rowMajor_val_two]
    show r.val * C + e.val = (p.val * B + k.val) * C + e.val
    rw [hr])

/-- A flag per `(p, k)` given a unit third axis and repeated along it: every place `(p, k, e)` reads the flag at `(p, k)`. -/
theorem flag_col_apply {A B C : ℕ} (v : (⟨2, ![A, B]⟩ : Shape).Idx → α)
    (h1 : (⟨2, ![A, B]⟩ : Shape).ShapeCasts ⟨3, ![A, B, 1]⟩)
    (h2 : (⟨3, ![A, B, 1]⟩ : Shape).Broadcasts ⟨3, ![A, B, C]⟩) (p : Fin A) (k : Fin B) (e : Fin C) :
    broadcastTo ⟨3, ![A, B, C]⟩ (shapeCast ⟨3, ![A, B, 1]⟩ v h1) h2 (ix3 p k e) = v (ix2 p k) := by
  refine (broadcastTo_apply _ h2 (ix3 p k e) (ix3 p k (0 : Fin 1)) fun ax => ?_).trans ?_
  · match ax with
    | ⟨0, _⟩ =>
      show p.val = if A = 1 then 0 else p.val
      split
      · have := p.isLt; omega
      · rfl
    | ⟨1, _⟩ =>
      show k.val = if B = 1 then 0 else k.val
      split
      · have := k.isLt; omega
      · rfl
    | ⟨2, _⟩ =>
      show (0 : ℕ) = if (1 : ℕ) = 1 then 0 else e.val
      rw [if_pos rfl]
  · exact shapeCast_apply v h1 (ix3 p k (0 : Fin 1)) (ix2 p k) (by
      rw [Shape.rowMajor_val_three, Shape.rowMajor_val_two]
      show p.val * B + k.val = (p.val * B + k.val) * 1 + 0
      omega)

/-- The reduced index `(p, o)` with the middle coordinate `k` put back is `(p, k, o)`. -/
theorem lift_mid {A B C : ℕ} (h : (⟨3, ![A, B, C]⟩ : Shape).Reduces [1] ⟨2, ![A, C]⟩) (p : Fin A) (o : Fin C)
    (k : Fin ((⟨3, ![A, B, C]⟩ : Shape).size 1)) : h.lift (ix2 p o) k = ix3 p (⟨k.val, k.isLt⟩ : Fin B) o := by
  funext c; apply Fin.ext
  fin_cases c <;> rfl

/-- A sum over the middle axis from the zero accumulator, at the extended reals, entry by entry. -/
theorem sum_mid_apply {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = FKind.add.neutral .f32 hφ) (p : Fin A) (o : Fin C) :
    multiReduction .add [1] ⟨2, ![A, C]⟩ src 0x00000000#32 h hφ hacc (ix2 p o) = ∑ k : Fin B, src (ix3 p k o) := by
  refine (Ideal.multiReduction_add_single src 0x00000000#32 h hφ hacc (ix2 p o)).trans ?_
  show ∑ k : Fin B, src (h.lift (ix2 p o) k) = _
  exact Finset.sum_congr rfl fun k _ => congrArg src (lift_mid h p o k)

end Cert.Lib.MidAxis

end
-- ==== Proof.LibSideBySide.lean ====
/-
  Arrays laid side by side by the host, read at an index.

  * `cat3_mid_k`  : three `[A, 1, C]` arrays concatenated along the middle axis into `[A, 3, C]`, read at `(r, k, l)`, are
                     the k-th array at `(r, 0, l)`;
  * `cat3_col_k`  : three `[A, 1]` columns concatenated into `[A, 3]`, read at `(r, k)`, are the k-th column at `(r, 0)`;
  * `cat4_cols_k` : four `[A, B]` blocks concatenated along the columns into `[A, N]`, read at column `k·B + l`, are the
                     k-th block at column `l`;
  * `stack_mid_k` : jax's `stack([s0, s1, s2], axis = 1)` of `[A, C]` arrays as the host prints it (each array given a unit
                     middle axis by a `broadcast_in_dim` over dimensions [0, 2], then `cat3_mid`), read at `(r, k, l)`, is
                     `s_k` at `(r, l)`;
  * `stack_col_k` : the same for three vectors `[A]` (dimensions [0], then `cat3_col`), read at `(r, k)`, is `c_k` at `r`;
  * `cast_a1b_ab_apply`, `band_apply`: an `[A, 1, C]` array cast to `[A, C]` reads the same entry, and the k-th band of an
                     `[A, K, C]` block — a unit slice along the middle axis, then that cast — read at `(p, l)` is the block
                     at `(p, k, l)`.
  * `spread_col_apply`: an `[A, 1]` column repeated over B columns reads the column's entry of the row;
  * `cat3`, `cat4`, `concatenate_triple`, `concatenate_quad`: three- and four-piece joins restated with the arrays as ordinary
                     arguments, so that a pass unfolding a line of host operations can rewrite inside the pieces.
  Over any element type; no arithmetic. Imports only the Idealize library.
-/
import Idealize.ShloMosaic.Lib.Pipeline.Value
import Idealize.ShloMosaic.Lib.ValueIdx
import Idealize.ShloMosaic.Lib.ValueLayout

noncomputable section

namespace Cert.Lib.SideBySide

open Idealize.ShloMosaic Idealize.ShloMosaic.ValueIdx

variable {α : Type}

/-- Piece 0 of three `[A, 1, C]` arrays laid side by side along the middle axis. -/
theorem cat3_mid_0 {A C : ℕ} (u0 u1 u2 : (⟨3, ![A, 1, C]⟩ : Shape).Idx → α)
    (h : Shape.Concatenates [(⟨3, ![A, 1, C]⟩ : Shape), ⟨3, ![A, 1, C]⟩, ⟨3, ![A, 1, C]⟩] ⟨3, ![A, 3, C]⟩ 1)
    (r : Fin A) (l : Fin C) :
    concatenate ⟨3, ![A, 3, C]⟩ 1 [⟨⟨3, ![A, 1, C]⟩, u0⟩, ⟨⟨3, ![A, 1, C]⟩, u1⟩, ⟨⟨3, ![A, 1, C]⟩, u2⟩] h (ix3 r (0 : Fin 3) l)
      = u0 (ix3 r (0 : Fin 1) l) := by
  refine concatenate_apply_piece (t := ⟨3, ![A, 3, C]⟩) (1 : Fin 3)
    [⟨⟨3, ![A, 1, C]⟩, u0⟩, ⟨⟨3, ![A, 1, C]⟩, u1⟩, ⟨⟨3, ![A, 1, C]⟩, u2⟩] h (ix3 r (0 : Fin 3) l) 0 (by simp)
    ⟨3, ![A, 1, C]⟩ u0 rfl rfl 0 rfl (ix3 r (0 : Fin 1) l) ?_ rfl
  intro b hb
  match b with
  | ⟨0, _⟩ => rfl
  | ⟨1, _⟩ => exact absurd rfl hb
  | ⟨2, _⟩ => rfl

/-- Piece 1 of three `[A, 1, C]` arrays laid side by side along the middle axis. -/
theorem cat3_mid_1 {A C : ℕ} (u0 u1 u2 : (⟨3, ![A, 1, C]⟩ : Shape).Idx → α)
    (h : Shape.Concatenates [(⟨3, ![A, 1, C]⟩ : Shape), ⟨3, ![A, 1, C]⟩, ⟨3, ![A, 1, C]⟩] ⟨3, ![A, 3, C]⟩ 1)
    (r : Fin A) (l : Fin C) :
    concatenate ⟨3, ![A, 3, C]⟩ 1 [⟨⟨3, ![A, 1, C]⟩, u0⟩, ⟨⟨3, ![A, 1, C]⟩, u1⟩, ⟨⟨3, ![A, 1, C]⟩, u2⟩] h (ix3 r (1 : Fin 3) l)
      = u1 (ix3 r (0 : Fin 1) l) := by
  refine concatenate_apply_piece (t := ⟨3, ![A, 3, C]⟩) (1 : Fin 3)
    [⟨⟨3, ![A, 1, C]⟩, u0⟩, ⟨⟨3, ![A, 1, C]⟩, u1⟩, ⟨⟨3, ![A, 1, C]⟩, u2⟩] h (ix3 r (1 : Fin 3) l) 1 (by simp)
    ⟨3, ![A, 1, C]⟩ u1 rfl rfl 1 rfl (ix3 r (0 : Fin 1) l) ?_ rfl
  intro b hb
  match b with
  | ⟨0, _⟩ => rfl
  | ⟨1, _⟩ => exact absurd rfl hb
  | ⟨2, _⟩ => rfl

/-- Piece 2 of three `[A, 1, C]` arrays laid side by side along the middle axis. -/
theorem cat3_mid_2 {A C : ℕ} (u0 u1 u2 : (⟨3, ![A, 1, C]⟩ : Shape).Idx → α)
    (h : Shape.Concatenates [(⟨3, ![A, 1, C]⟩ : Shape), ⟨3, ![A, 1, C]⟩, ⟨3, ![A, 1, C]⟩] ⟨3, ![A, 3, C]⟩ 1)
    (r : Fin A) (l : Fin C) :
    concatenate ⟨3, ![A, 3, C]⟩ 1 [⟨⟨3, ![A, 1, C]⟩, u0⟩, ⟨⟨3, ![A, 1, C]⟩, u1⟩, ⟨⟨3, ![A, 1, C]⟩, u2⟩] h (ix3 r (2 : Fin 3) l)
      = u2 (ix3 r (0 : Fin 1) l) := by
  refine concatenate_apply_piece (t := ⟨3, ![A, 3, C]⟩) (1 : Fin 3)
    [⟨⟨3, ![A, 1, C]⟩, u0⟩, ⟨⟨3, ![A, 1, C]⟩, u1⟩, ⟨⟨3, ![A, 1, C]⟩, u2⟩] h (ix3 r (2 : Fin 3) l) 2 (by simp)
    ⟨3, ![A, 1, C]⟩ u2 rfl rfl 2 rfl (ix3 r (0 : Fin 1) l) ?_ rfl
  intro b hb
  match b with
  | ⟨0, _⟩ => rfl
  | ⟨1, _⟩ => exact absurd rfl hb
  | ⟨2, _⟩ => rfl

/-- Piece 0 of three `[A, 1]` columns laid side by side. -/
theorem cat3_col_0 {A : ℕ} (u0 u1 u2 : (⟨2, ![A, 1]⟩ : Shape).Idx → α)
    (h : Shape.Concatenates [(⟨2, ![A, 1]⟩ : Shape), ⟨2, ![A, 1]⟩, ⟨2, ![A, 1]⟩] ⟨2, ![A, 3]⟩ 1)
    (r : Fin A) :
    concatenate ⟨2, ![A, 3]⟩ 1 [⟨⟨2, ![A, 1]⟩, u0⟩, ⟨⟨2, ![A, 1]⟩, u1⟩, ⟨⟨2, ![A, 1]⟩, u2⟩] h (ix2 r (0 : Fin 3))
      = u0 (ix2 r (0 : Fin 1)) := by
  refine concatenate_apply_piece (t := ⟨2, ![A, 3]⟩) (1 : Fin 2)
    [⟨⟨2, ![A, 1]⟩, u0⟩, ⟨⟨2, ![A, 1]⟩, u1⟩, ⟨⟨2, ![A, 1]⟩, u2⟩] h (ix2 r (0 : Fin 3)) 0 (by simp)
    ⟨2, ![A, 1]⟩ u0 rfl rfl 0 rfl (ix2 r (0 : Fin 1)) ?_ rfl
  intro b hb
  match b with
  | ⟨0, _⟩ => rfl
  | ⟨1, _⟩ => exact absurd rfl hb

/-- Piece 1 of three `[A, 1]` columns laid side by side. -/
theorem cat3_col_1 {A : ℕ} (u0 u1 u2 : (⟨2, ![A, 1]⟩ : Shape).Idx → α)
    (h : Shape.Concatenates [(⟨2, ![A, 1]⟩ : Shape), ⟨2, ![A, 1]⟩, ⟨2, ![A, 1]⟩] ⟨2, ![A, 3]⟩ 1)
    (r : Fin A) :
    concatenate ⟨2, ![A, 3]⟩ 1 [⟨⟨2, ![A, 1]⟩, u0⟩, ⟨⟨2, ![A, 1]⟩, u1⟩, ⟨⟨2, ![A, 1]⟩, u2⟩] h (ix2 r (1 : Fin 3))
      = u1 (ix2 r (0 : Fin 1)) := by
  refine concatenate_apply_piece (t := ⟨2, ![A, 3]⟩) (1 : Fin 2)
    [⟨⟨2, ![A, 1]⟩, u0⟩, ⟨⟨2, ![A, 1]⟩, u1⟩, ⟨⟨2, ![A, 1]⟩, u2⟩] h (ix2 r (1 : Fin 3)) 1 (by simp)
    ⟨2, ![A, 1]⟩ u1 rfl rfl 1 rfl (ix2 r (0 : Fin 1)) ?_ rfl
  intro b hb
  match b with
  | ⟨0, _⟩ => rfl
  | ⟨1, _⟩ => exact absurd rfl hb

/-- Piece 2 of three `[A, 1]` columns laid side by side. -/
theorem cat3_col_2 {A : ℕ} (u0 u1 u2 : (⟨2, ![A, 1]⟩ : Shape).Idx → α)
    (h : Shape.Concatenates [(⟨2, ![A, 1]⟩ : Shape), ⟨2, ![A, 1]⟩, ⟨2, ![A, 1]⟩] ⟨2, ![A, 3]⟩ 1)
    (r : Fin A) :
    concatenate ⟨2, ![A, 3]⟩ 1 [⟨⟨2, ![A, 1]⟩, u0⟩, ⟨⟨2, ![A, 1]⟩, u1⟩, ⟨⟨2, ![A, 1]⟩, u2⟩] h (ix2 r (2 : Fin 3))
      = u2 (ix2 r (0 : Fin 1)) := by
  refine concatenate_apply_piece (t := ⟨2, ![A, 3]⟩) (1 : Fin 2)
    [⟨⟨2, ![A, 1]⟩, u0⟩, ⟨⟨2, ![A, 1]⟩, u1⟩, ⟨⟨2, ![A, 1]⟩, u2⟩] h (ix2 r (2 : Fin 3)) 2 (by simp)
    ⟨2, ![A, 1]⟩ u2 rfl rfl 2 rfl (ix2 r (0 : Fin 1)) ?_ rfl
  intro b hb
  match b with
  | ⟨0, _⟩ => rfl
  | ⟨1, _⟩ => exact absurd rfl hb

/-- Piece 0 of four `[A, B]` blocks laid side by side along the columns: column `0 + l` reads its column `l`. -/
theorem cat4_cols_0 {A B N : ℕ} (u0 u1 u2 u3 : (⟨2, ![A, B]⟩ : Shape).Idx → α)
    (h : Shape.Concatenates [(⟨2, ![A, B]⟩ : Shape), ⟨2, ![A, B]⟩, ⟨2, ![A, B]⟩, ⟨2, ![A, B]⟩] ⟨2, ![A, N]⟩ 1)
    (r : Fin A) (j : Fin N) (l : Fin B) (hj : j.val = 0 + l.val) :
    concatenate ⟨2, ![A, N]⟩ 1 [⟨⟨2, ![A, B]⟩, u0⟩, ⟨⟨2, ![A, B]⟩, u1⟩, ⟨⟨2, ![A, B]⟩, u2⟩, ⟨⟨2, ![A, B]⟩, u3⟩] h (ix2 r j)
      = u0 (ix2 r l) := by
  refine concatenate_apply_piece (t := ⟨2, ![A, N]⟩) (1 : Fin 2)
    [⟨⟨2, ![A, B]⟩, u0⟩, ⟨⟨2, ![A, B]⟩, u1⟩, ⟨⟨2, ![A, B]⟩, u2⟩, ⟨⟨2, ![A, B]⟩, u3⟩] h (ix2 r j) 0 (by simp)
    ⟨2, ![A, B]⟩ u0 rfl rfl (0) ?_ (ix2 r l) ?_ hj.symm
  · show _ = 0
    simp [List.take]
    all_goals omega
  · intro b hb
    match b with
    | ⟨0, _⟩ => rfl
    | ⟨1, _⟩ => exact absurd rfl hb

/-- Piece 1 of four `[A, B]` blocks laid side by side along the columns: column `B + l` reads its column `l`. -/
theorem cat4_cols_1 {A B N : ℕ} (u0 u1 u2 u3 : (⟨2, ![A, B]⟩ : Shape).Idx → α)
    (h : Shape.Concatenates [(⟨2, ![A, B]⟩ : Shape), ⟨2, ![A, B]⟩, ⟨2, ![A, B]⟩, ⟨2, ![A, B]⟩] ⟨2, ![A, N]⟩ 1)
    (r : Fin A) (j : Fin N) (l : Fin B) (hj : j.val = B + l.val) :
    concatenate ⟨2, ![A, N]⟩ 1 [⟨⟨2, ![A, B]⟩, u0⟩, ⟨⟨2, ![A, B]⟩, u1⟩, ⟨⟨2, ![A, B]⟩, u2⟩, ⟨⟨2, ![A, B]⟩, u3⟩] h (ix2 r j)
      = u1 (ix2 r l) := by
  refine concatenate_apply_piece (t := ⟨2, ![A, N]⟩) (1 : Fin 2)
    [⟨⟨2, ![A, B]⟩, u0⟩, ⟨⟨2, ![A, B]⟩, u1⟩, ⟨⟨2, ![A, B]⟩, u2⟩, ⟨⟨2, ![A, B]⟩, u3⟩] h (ix2 r j) 1 (by simp)
    ⟨2, ![A, B]⟩ u1 rfl rfl (B) ?_ (ix2 r l) ?_ hj.symm
  · show _ = B
    simp [List.take]
    all_goals omega
  · intro b hb
    match b with
    | ⟨0, _⟩ => rfl
    | ⟨1, _⟩ => exact absurd rfl hb

/-- Piece 2 of four `[A, B]` blocks laid side by side along the columns: column `B + B + l` reads its column `l`. -/
theorem cat4_cols_2 {A B N : ℕ} (u0 u1 u2 u3 : (⟨2, ![A, B]⟩ : Shape).Idx → α)
    (h : Shape.Concatenates [(⟨2, ![A, B]⟩ : Shape), ⟨2, ![A, B]⟩, ⟨2, ![A, B]⟩, ⟨2, ![A, B]⟩] ⟨2, ![A, N]⟩ 1)
    (r : Fin A) (j : Fin N) (l : Fin B) (hj : j.val = B + B + l.val) :
    concatenate ⟨2, ![A, N]⟩ 1 [⟨⟨2, ![A, B]⟩, u0⟩, ⟨⟨2, ![A, B]⟩, u1⟩, ⟨⟨2, ![A, B]⟩, u2⟩, ⟨⟨2, ![A, B]⟩, u3⟩] h (ix2 r j)
      = u2 (ix2 r l) := by
  refine concatenate_apply_piece (t := ⟨2, ![A, N]⟩) (1 : Fin 2)
    [⟨⟨2, ![A, B]⟩, u0⟩, ⟨⟨2, ![A, B]⟩, u1⟩, ⟨⟨2, ![A, B]⟩, u2⟩, ⟨⟨2, ![A, B]⟩, u3⟩] h (ix2 r j) 2 (by simp)
    ⟨2, ![A, B]⟩ u2 rfl rfl (B + B) ?_ (ix2 r l) ?_ hj.symm
  · show _ = B + B
    simp [List.take]
    all_goals omega
  · intro b hb
    match b with
    | ⟨0, _⟩ => rfl
    | ⟨1, _⟩ => exact absurd rfl hb

/-- Piece 3 of four `[A, B]` blocks laid side by side along the columns: column `B + B + B + l` reads its column `l`. -/
theorem cat4_cols_3 {A B N : ℕ} (u0 u1 u2 u3 : (⟨2, ![A, B]⟩ : Shape).Idx → α)
    (h : Shape.Concatenates [(⟨2, ![A, B]⟩ : Shape), ⟨2, ![A, B]⟩, ⟨2, ![A, B]⟩, ⟨2, ![A, B]⟩] ⟨2, ![A, N]⟩ 1)
    (r : Fin A) (j : Fin N) (l : Fin B) (hj : j.val = B + B + B + l.val) :
    concatenate ⟨2, ![A, N]⟩ 1 [⟨⟨2, ![A, B]⟩, u0⟩, ⟨⟨2, ![A, B]⟩, u1⟩, ⟨⟨2, ![A, B]⟩, u2⟩, ⟨⟨2, ![A, B]⟩, u3⟩] h (ix2 r j)
      = u3 (ix2 r l) := by
  refine concatenate_apply_piece (t := ⟨2, ![A, N]⟩) (1 : Fin 2)
    [⟨⟨2, ![A, B]⟩, u0⟩, ⟨⟨2, ![A, B]⟩, u1⟩, ⟨⟨2, ![A, B]⟩, u2⟩, ⟨⟨2, ![A, B]⟩, u3⟩] h (ix2 r j) 3 (by simp)
    ⟨2, ![A, B]⟩ u3 rfl rfl (B + B + B) ?_ (ix2 r l) ?_ hj.symm
  · show _ = B + B + B
    simp [List.take]
    all_goals omega
  · intro b hb
    match b with
    | ⟨0, _⟩ => rfl
    | ⟨1, _⟩ => exact absurd rfl hb

/-- An `[A, C]` array given a unit middle axis reads, at `(r, 0, l)`, the array at `(r, l)`. -/
theorem unit_mid_apply {A C : ℕ} (s : (⟨2, ![A, C]⟩ : Shape).Idx → α)
    (hb : (⟨2, ![A, C]⟩ : Shape).BroadcastsInDim ⟨3, ![A, 1, C]⟩ ![0, 2]) (r : Fin A) (l : Fin C) :
    broadcastInDim ⟨3, ![A, 1, C]⟩ ![0, 2] hb s (ix3 r (0 : Fin 1) l) = s (ix2 r l) :=
  broadcastInDim_apply ![0, 2] hb s (ix3 r (0 : Fin 1) l) (ix2 r l) (fun d => match d with
    | ⟨0, _⟩ => by
      show r.val = if A = 1 then 0 else r.val
      split
      · have := r.isLt; omega
      · rfl
    | ⟨1, _⟩ => by
      show l.val = if C = 1 then 0 else l.val
      split
      · have := l.isLt; omega
      · rfl)

/-- A vector `[A]` placed as a column reads, at `(r, 0)`, the vector at `r`. -/
theorem unit_col_apply {A : ℕ} (v : (⟨1, ![A]⟩ : Shape).Idx → α)
    (hb : (⟨1, ![A]⟩ : Shape).BroadcastsInDim ⟨2, ![A, 1]⟩ ![0]) (r : Fin A) :
    broadcastInDim ⟨2, ![A, 1]⟩ ![0] hb v (ix2 r (0 : Fin 1)) = v (ix1 r) :=
  broadcastInDim_apply ![0] hb v (ix2 r (0 : Fin 1)) (ix1 r) (fun d => match d with
    | ⟨0, _⟩ => by
      show r.val = if A = 1 then 0 else r.val
      split
      · have := r.isLt; omega
      · rfl)

/-- Three `[A, C]` arrays stacked along a new middle axis, read at `(r, 0, l)`. -/
theorem stack_mid_0 {A C : ℕ} (s0 s1 s2 : (⟨2, ![A, C]⟩ : Shape).Idx → α)
    (hb : (⟨2, ![A, C]⟩ : Shape).BroadcastsInDim ⟨3, ![A, 1, C]⟩ ![0, 2])
    (h : Shape.Concatenates [(⟨3, ![A, 1, C]⟩ : Shape), ⟨3, ![A, 1, C]⟩, ⟨3, ![A, 1, C]⟩] ⟨3, ![A, 3, C]⟩ 1)
    (r : Fin A) (l : Fin C) :
    concatenate ⟨3, ![A, 3, C]⟩ 1 [⟨⟨3, ![A, 1, C]⟩, broadcastInDim ⟨3, ![A, 1, C]⟩ ![0, 2] hb s0⟩,
        ⟨⟨3, ![A, 1, C]⟩, broadcastInDim ⟨3, ![A, 1, C]⟩ ![0, 2] hb s1⟩,
        ⟨⟨3, ![A, 1, C]⟩, broadcastInDim ⟨3, ![A, 1, C]⟩ ![0, 2] hb s2⟩] h (ix3 r (0 : Fin 3) l)
      = s0 (ix2 r l) :=
  (cat3_mid_0 _ _ _ h r l).trans (unit_mid_apply s0 hb r l)

/-- Three `[A, C]` arrays stacked along a new middle axis, read at `(r, 1, l)`. -/
theorem stack_mid_1 {A C : ℕ} (s0 s1 s2 : (⟨2, ![A, C]⟩ : Shape).Idx → α)
    (hb : (⟨2, ![A, C]⟩ : Shape).BroadcastsInDim ⟨3, ![A, 1, C]⟩ ![0, 2])
    (h : Shape.Concatenates [(⟨3, ![A, 1, C]⟩ : Shape), ⟨3, ![A, 1, C]⟩, ⟨3, ![A, 1, C]⟩] ⟨3, ![A, 3, C]⟩ 1)
    (r : Fin A) (l : Fin C) :
    concatenate ⟨3, ![A, 3, C]⟩ 1 [⟨⟨3, ![A, 1, C]⟩, broadcastInDim ⟨3, ![A, 1, C]⟩ ![0, 2] hb s0⟩,
        ⟨⟨3, ![A, 1, C]⟩, broadcastInDim ⟨3, ![A, 1, C]⟩ ![0, 2] hb s1⟩,
        ⟨⟨3, ![A, 1, C]⟩, broadcastInDim ⟨3, ![A, 1, C]⟩ ![0, 2] hb s2⟩] h (ix3 r (1 : Fin 3) l)
      = s1 (ix2 r l) :=
  (cat3_mid_1 _ _ _ h r l).trans (unit_mid_apply s1 hb r l)

/-- Three `[A, C]` arrays stacked along a new middle axis, read at `(r, 2, l)`. -/
theorem stack_mid_2 {A C : ℕ} (s0 s1 s2 : (⟨2, ![A, C]⟩ : Shape).Idx → α)
    (hb : (⟨2, ![A, C]⟩ : Shape).BroadcastsInDim ⟨3, ![A, 1, C]⟩ ![0, 2])
    (h : Shape.Concatenates [(⟨3, ![A, 1, C]⟩ : Shape), ⟨3, ![A, 1, C]⟩, ⟨3, ![A, 1, C]⟩] ⟨3, ![A, 3, C]⟩ 1)
    (r : Fin A) (l : Fin C) :
    concatenate ⟨3, ![A, 3, C]⟩ 1 [⟨⟨3, ![A, 1, C]⟩, broadcastInDim ⟨3, ![A, 1, C]⟩ ![0, 2] hb s0⟩,
        ⟨⟨3, ![A, 1, C]⟩, broadcastInDim ⟨3, ![A, 1, C]⟩ ![0, 2] hb s1⟩,
        ⟨⟨3, ![A, 1, C]⟩, broadcastInDim ⟨3, ![A, 1, C]⟩ ![0, 2] hb s2⟩] h (ix3 r (2 : Fin 3) l)
      = s2 (ix2 r l) :=
  (cat3_mid_2 _ _ _ h r l).trans (unit_mid_apply s2 hb r l)

/-- Three vectors `[A]` stacked as columns, read at `(r, 0)`. -/
theorem stack_col_0 {A : ℕ} (c0 c1 c2 : (⟨1, ![A]⟩ : Shape).Idx → α)
    (hb : (⟨1, ![A]⟩ : Shape).BroadcastsInDim ⟨2, ![A, 1]⟩ ![0])
    (h : Shape.Concatenates [(⟨2, ![A, 1]⟩ : Shape), ⟨2, ![A, 1]⟩, ⟨2, ![A, 1]⟩] ⟨2, ![A, 3]⟩ 1)
    (r : Fin A) :
    concatenate ⟨2, ![A, 3]⟩ 1 [⟨⟨2, ![A, 1]⟩, broadcastInDim ⟨2, ![A, 1]⟩ ![0] hb c0⟩,
        ⟨⟨2, ![A, 1]⟩, broadcastInDim ⟨2, ![A, 1]⟩ ![0] hb c1⟩,
        ⟨⟨2, ![A, 1]⟩, broadcastInDim ⟨2, ![A, 1]⟩ ![0] hb c2⟩] h (ix2 r (0 : Fin 3))
      = c0 (ix1 r) :=
  (cat3_col_0 _ _ _ h r).trans (unit_col_apply c0 hb r)

/-- Three vectors `[A]` stacked as columns, read at `(r, 1)`. -/
theorem stack_col_1 {A : ℕ} (c0 c1 c2 : (⟨1, ![A]⟩ : Shape).Idx → α)
    (hb : (⟨1, ![A]⟩ : Shape).BroadcastsInDim ⟨2, ![A, 1]⟩ ![0])
    (h : Shape.Concatenates [(⟨2, ![A, 1]⟩ : Shape), ⟨2, ![A, 1]⟩, ⟨2, ![A, 1]⟩] ⟨2, ![A, 3]⟩ 1)
    (r : Fin A) :
    concatenate ⟨2, ![A, 3]⟩ 1 [⟨⟨2, ![A, 1]⟩, broadcastInDim ⟨2, ![A, 1]⟩ ![0] hb c0⟩,
        ⟨⟨2, ![A, 1]⟩, broadcastInDim ⟨2, ![A, 1]⟩ ![0] hb c1⟩,
        ⟨⟨2, ![A, 1]⟩, broadcastInDim ⟨2, ![A, 1]⟩ ![0] hb c2⟩] h (ix2 r (1 : Fin 3))
      = c1 (ix1 r) :=
  (cat3_col_1 _ _ _ h r).trans (unit_col_apply c1 hb r)

/-- Three vectors `[A]` stacked as columns, read at `(r, 2)`. -/
theorem stack_col_2 {A : ℕ} (c0 c1 c2 : (⟨1, ![A]⟩ : Shape).Idx → α)
    (hb : (⟨1, ![A]⟩ : Shape).BroadcastsInDim ⟨2, ![A, 1]⟩ ![0])
    (h : Shape.Concatenates [(⟨2, ![A, 1]⟩ : Shape), ⟨2, ![A, 1]⟩, ⟨2, ![A, 1]⟩] ⟨2, ![A, 3]⟩ 1)
    (r : Fin A) :
    concatenate ⟨2, ![A, 3]⟩ 1 [⟨⟨2, ![A, 1]⟩, broadcastInDim ⟨2, ![A, 1]⟩ ![0] hb c0⟩,
        ⟨⟨2, ![A, 1]⟩, broadcastInDim ⟨2, ![A, 1]⟩ ![0] hb c1⟩,
        ⟨⟨2, ![A, 1]⟩, broadcastInDim ⟨2, ![A, 1]⟩ ![0] hb c2⟩] h (ix2 r (2 : Fin 3))
      = c2 (ix1 r) :=
  (cat3_col_2 _ _ _ h r).trans (unit_col_apply c2 hb r)

/-- An `[A, 1]` column repeated over `B` columns reads, at `(r, c)`, the column at `(r, 0)` (for `A ≠ 1`). -/
theorem spread_col_apply {A B : ℕ} (hA : A ≠ 1) (x : (⟨2, ![A, 1]⟩ : Shape).Idx → α)
    (h : (⟨2, ![A, 1]⟩ : Shape).BroadcastsInDim ⟨2, ![A, B]⟩ ![0, 1]) (r : Fin A) (c : Fin B) :
    broadcastInDim ⟨2, ![A, B]⟩ ![0, 1] h x (ix2 r c) = x (ix2 r (0 : Fin 1)) :=
  broadcastInDim_apply ![0, 1] h x (ix2 r c) (ix2 r (0 : Fin 1)) (fun d => match d with
    | ⟨0, _⟩ => by show r.val = if A = 1 then 0 else r.val; rw [if_neg hA]
    | ⟨1, _⟩ => by show (0 : ℕ) = if (1 : ℕ) = 1 then 0 else c.val; rw [if_pos rfl])

/-- An `[A, 1, C]` array cast to `[A, C]` reads, at `(p, l)`, the array at `(p, 0, l)`. -/
theorem cast_a1b_ab_apply {A C : ℕ} (x : (⟨3, ![A, 1, C]⟩ : Shape).Idx → α)
    (h : (⟨3, ![A, 1, C]⟩ : Shape).ShapeCasts ⟨2, ![A, C]⟩) (p : Fin A) (l : Fin C) :
    shapeCast ⟨2, ![A, C]⟩ x h (ix2 p l) = x (ix3 p (0 : Fin 1) l) :=
  shapeCast_apply x h _ _ (by
    rw [Shape.rowMajor_val_three, Shape.rowMajor_val_two]
    show (p.val * 1 + 0) * C + l.val = p.val * C + l.val
    rw [Nat.mul_one, Nat.add_zero])

/-- Band `k` of an `[A, K, C]` block — the unit slice at `k` along the middle axis, cast to `[A, C]` — reads, at `(p, l)`,
    the block at `(p, k, l)`. -/
theorem band_apply {A K C : ℕ} (o : ℕ) (X : (⟨3, ![A, K, C]⟩ : Shape).Idx → α)
    (hs : (⟨3, ![A, K, C]⟩ : Shape).Slices ![0, o, 0] ⟨3, ![A, 1, C]⟩)
    (hc : (⟨3, ![A, 1, C]⟩ : Shape).ShapeCasts ⟨2, ![A, C]⟩) (p : Fin A) (l : Fin C) (k : Fin K) (hk : k.val = o) :
    shapeCast ⟨2, ![A, C]⟩ (extractStridedSlice ⟨3, ![A, 1, C]⟩ ![0, o, 0] X hs) hc (ix2 p l) = X (ix3 p k l) :=
  (cast_a1b_ab_apply _ hc p l).trans (slice3_axis1_apply o X hs p (0 : Fin 1) l k (by rw [hk]; rfl))

/-! ## Joins whose pieces a rewriting pass can reach

The library's `concatenate` takes its pieces as a list of (shape, array) pairs and a fact about that list's shapes; the
fact's type mentions the list, so a pass that rewrites argument by argument stops at the list. `cat3` and `cat4` are
the same joins with the fact stated over the shapes only, the arrays ordinary arguments; `concatenate_triple` and
`concatenate_quad` (by `rfl`) let such a pass go on into the pieces. -/

/-- Three arrays joined along an axis, the arrays ordinary arguments. -/
def cat3 {α : Type} {t : Shape} {a : Fin t.rank} {s₁ s₂ s₃ : Shape} (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

theorem concatenate_triple {α : Type} {t : Shape} {a : Fin t.rank} {s₁ s₂ s₃ : Shape} (h : Shape.Concatenates [s₁, s₂, s₃] t a)
    (x₁ : s₁.Idx → α) (x₂ : s₂.Idx → α) (x₃ : s₃.Idx → α) :
    concatenate t a [⟨s₁, x₁⟩, ⟨s₂, x₂⟩, ⟨s₃, x₃⟩] h = cat3 h x₁ x₂ x₃ := rfl

/-- Four arrays joined along an axis, the arrays ordinary arguments. -/
def cat4 {α : Type} {t : Shape} {a : Fin t.rank} {s₁ s₂ s₃ s₄ : Shape} (h : Shape.Concatenates [s₁, s₂, s₃, s₄] t a)
    (x₁ : s₁.Idx → α) (x₂ : s₂.Idx → α) (x₃ : s₃.Idx → α) (x₄ : s₄.Idx → α) : t.Idx → α :=
  concatenate t a [⟨s₁, x₁⟩, ⟨s₂, x₂⟩, ⟨s₃, x₃⟩, ⟨s₄, x₄⟩] h

theorem concatenate_quad {α : Type} {t : Shape} {a : Fin t.rank} {s₁ s₂ s₃ s₄ : Shape} (h : Shape.Concatenates [s₁, s₂, s₃, s₄] t a)
    (x₁ : s₁.Idx → α) (x₂ : s₂.Idx → α) (x₃ : s₃.Idx → α) (x₄ : s₄.Idx → α) :
    concatenate t a [⟨s₁, x₁⟩, ⟨s₂, x₂⟩, ⟨s₃, x₃⟩, ⟨s₄, x₄⟩] h = cat4 h x₁ x₂ x₃ x₄ := rfl

end Cert.Lib.SideBySide

end
-- ==== Proof.KernelIdealValue.lean ====
/-
  What one grid point leaves in the output's staging buffer, as a function of the three input blocks.

  The body stores four bands of 128 lanes: lanes 0…127 are the node-feature block itself, and band t+1 is the t-th
  middle-axis slice of the masked mean of the block's stacked sums and counts. So the 2000 × 512 buffer holds, at row p
  and lane j: the features at (p, j) when j < 128, and otherwise

      mean1 (counts (p, j / 128 − 1)) (sums (p, j / 128 − 1, j % 128)).

  The mean of the whole [2000, 3, 128] block is pointwise in the sums and in the counts repeated along the lanes
  (the counts given a unit third axis and repeated along it), so an entry of it reads one count and one sum.
-/
import proofs.«121044_j28295244546274_1_alg».proof.Proof.KernelIdealFrame
import proofs.«121044_j28295244546274_1_alg».proof.Proof.MeanConcat
import proofs.«121044_j28295244546274_1_alg».proof.Proof.LibMidAxis
import proofs.«121044_j28295244546274_1_alg».proof.Proof.LibSideBySide
import Idealize.ShloMosaic.Lib.Pipeline.Value
import Idealize.ShloMosaic.Lib.ValueIdx
import Idealize.ShloMosaic.Lib.ValueLayout

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.MeanConcat (mean1)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stores the run found, over the payload names -/

/-- The four band stores, last first: each load of a whole input buffer reads its contents. -/
theorem pieces_eq (c : Dev nD) (i : grid0.Coords)
    (a1 : Memref sig .tc .vmem S2000x128 .f32) (h1 : a1.IsWhole)
    (a2 : Memref sig .tc .vmem S2000x3x128 .f32) (h2 : a2.IsWhole)
    (a3 : Memref sig .tc .vmem S2000x3 .f32) (h3 : a3.IsWhole)
    (a4 : Memref sig .tc .vmem S2000x512 .f32) (h4 : a4.IsWhole)
    (x0 : Vec F S2000x128 .f32) (x1 : Vec F S2000x3x128 .f32) (x2 : Vec F S2000x3 .f32) :
    (kernelRun0_A c i a1 h1 a2 h2 a3 h3 a4 h4 x0 x1 x2).1 =
      [⟨Rect.unit ![0, 384] S2000x128.size inb_S2000x512_S2000x128_0_384, k0_pay4 x1 x2⟩,
       ⟨Rect.unit ![0, 256] S2000x128.size inb_S2000x512_S2000x128_0_256, k0_pay3 x1 x2⟩,
       ⟨Rect.unit ![0, 128] S2000x128.size inb_S2000x512_S2000x128_0_128, k0_pay2 x1 x2⟩,
       ⟨Rect.unit ![0, 0] S2000x128.size inb_S2000x512_S2000x128_0_0, x0⟩] := by
  unfold kernelRun0_A
  dsimp only
  simp only [View.readAt_eq_ld, h1.read_unread, h2.read_unread, h3.read_unread,
    View.ld_unit_zero (S := S2000x128) hz2, View.ld_unit_zero (S := S2000x3x128) hz3, View.ld_unit_zero (S := S2000x3) hz2]

/-! ## The block as one function -/

/-- The lane of a column within its band of 128. -/
abbrev lane (y : S2000x512.Idx) : Fin 128 := ⟨(y 1).val % 128, Nat.mod_lt _ (by decide)⟩

/-- What the output's buffer holds after the body, entry by entry: band 0 the features, band t+1 the t-th payload. -/
def blockFn (x0 : Vec F S2000x128 .f32) (x1 : Vec F S2000x3x128 .f32) (x2 : Vec F S2000x3 .f32) : S2000x512.Idx → F .f32 := fun y =>
  if (y 1).val / 128 = 0 then x0 (ix2 (y 0) (lane y))
  else if (y 1).val / 128 = 1 then k0_pay2 x1 x2 (ix2 (y 0) (lane y))
  else if (y 1).val / 128 = 2 then k0_pay3 x1 x2 (ix2 (y 0) (lane y))
  else k0_pay4 x1 x2 (ix2 (y 0) (lane y))

/-- An entry of band `b` (lanes 128·b … 128·b+127) read through the band's rectangle. -/
theorem blockFn_band (x0 : Vec F S2000x128 .f32) (x1 : Vec F S2000x3x128 .f32) (x2 : Vec F S2000x3 .f32)
    (b : ℕ) (inb : ∀ a, (![0, 128 * b] : Fin 2 → Nat) a + S2000x128.size a ≤ S2000x512.size a) (x : S2000x128.Idx) :
    (Rect.unit (s := S2000x512) ![0, 128 * b] S2000x128.size inb).emb x 0 = (⟨(x 0).val, idx2_lt0 x⟩ : Fin 2000)
    ∧ ((Rect.unit (s := S2000x512) ![0, 128 * b] S2000x128.size inb).emb x 1).val = 128 * b + (x 1).val := by
  constructor
  · apply Fin.ext
    show 0 + 1 * (x 0).val = (x 0).val
    omega
  · show 128 * b + 1 * (x 1).val = 128 * b + (x 1).val
    omega

/-- The buffer after the body is `blockFn` of the input blocks: every entry lies in one of the four bands, and the band's
    store wrote there what `blockFn` says. -/
theorem out_eq (c : Dev nD) (i : grid0.Coords)
    (a1 : Memref sig .tc .vmem S2000x128 .f32) (h1 : a1.IsWhole)
    (a2 : Memref sig .tc .vmem S2000x3x128 .f32) (h2 : a2.IsWhole)
    (a3 : Memref sig .tc .vmem S2000x3 .f32) (h3 : a3.IsWhole)
    (a4 : Memref sig .tc .vmem S2000x512 .f32) (h4 : a4.IsWhole)
    (x0 : Vec F S2000x128 .f32) (x1 : Vec F S2000x3x128 .f32) (x2 : Vec F S2000x3 .f32) :
    out0_A_3 c i a1 h1 a2 h2 a3 h3 a4 h4 x0 x1 x2 = blockFn x0 x1 x2 := by
  funext y
  unfold out0_A_3
  have hc := cover0_A_3 c i a1 h1 a2 h2 a3 h3 a4 h4 x0 x1 x2 y
  rw [pieces_eq] at hc ⊢
  refine View.read_writes_apply_of_pieces VO0_3 VO0_3.junk (blockFn x0 x1 x2) _ ?_ y hc
  intro p hp x
  simp only [List.mem_cons, List.not_mem_nil, or_false] at hp
  rcases hp with rfl | rfl | rfl | rfl
  · -- band 3: lanes 384 … 511
    obtain ⟨e0, e1⟩ := blockFn_band x0 x1 x2 3 inb_S2000x512_S2000x128_0_384 x
    have hx1 := idx2_lt1 x
    have hq : ((Rect.unit (s := S2000x512) ![0, 384] S2000x128.size inb_S2000x512_S2000x128_0_384).emb x 1).val / 128 = 3 := by
      rw [show ((Rect.unit (s := S2000x512) ![0, 384] S2000x128.size inb_S2000x512_S2000x128_0_384).emb x 1).val = 128 * 3 + (x 1).val from e1]; omega
    have hl : lane ((Rect.unit (s := S2000x512) ![0, 384] S2000x128.size inb_S2000x512_S2000x128_0_384).emb x) = x 1 :=
      Fin.ext (by
        show ((Rect.unit (s := S2000x512) ![0, 384] S2000x128.size inb_S2000x512_S2000x128_0_384).emb x 1).val % 128 = (x 1).val
        rw [show ((Rect.unit (s := S2000x512) ![0, 384] S2000x128.size inb_S2000x512_S2000x128_0_384).emb x 1).val = 128 * 3 + (x 1).val from e1]; omega)
    show k0_pay4 x1 x2 x = blockFn x0 x1 x2 _
    unfold blockFn
    simp only [hq, hl]
    refine congrArg (k0_pay4 x1 x2) ?_
    rw [show (Rect.unit (s := S2000x512) ![0, 384] S2000x128.size inb_S2000x512_S2000x128_0_384).emb x 0 = (⟨(x 0).val, idx2_lt0 x⟩ : Fin 2000) from e0]
    exact eq_ix2 x
  · -- band 2: lanes 256 … 383
    obtain ⟨e0, e1⟩ := blockFn_band x0 x1 x2 2 inb_S2000x512_S2000x128_0_256 x
    have hx1 := idx2_lt1 x
    have hq : ((Rect.unit (s := S2000x512) ![0, 256] S2000x128.size inb_S2000x512_S2000x128_0_256).emb x 1).val / 128 = 2 := by
      rw [show ((Rect.unit (s := S2000x512) ![0, 256] S2000x128.size inb_S2000x512_S2000x128_0_256).emb x 1).val = 128 * 2 + (x 1).val from e1]; omega
    have hl : lane ((Rect.unit (s := S2000x512) ![0, 256] S2000x128.size inb_S2000x512_S2000x128_0_256).emb x) = x 1 :=
      Fin.ext (by
        show ((Rect.unit (s := S2000x512) ![0, 256] S2000x128.size inb_S2000x512_S2000x128_0_256).emb x 1).val % 128 = (x 1).val
        rw [show ((Rect.unit (s := S2000x512) ![0, 256] S2000x128.size inb_S2000x512_S2000x128_0_256).emb x 1).val = 128 * 2 + (x 1).val from e1]; omega)
    show k0_pay3 x1 x2 x = blockFn x0 x1 x2 _
    unfold blockFn
    simp only [hq, hl]
    refine congrArg (k0_pay3 x1 x2) ?_
    rw [show (Rect.unit (s := S2000x512) ![0, 256] S2000x128.size inb_S2000x512_S2000x128_0_256).emb x 0 = (⟨(x 0).val, idx2_lt0 x⟩ : Fin 2000) from e0]
    exact eq_ix2 x
  · -- band 1: lanes 128 … 255
    obtain ⟨e0, e1⟩ := blockFn_band x0 x1 x2 1 inb_S2000x512_S2000x128_0_128 x
    have hx1 := idx2_lt1 x
    have hq : ((Rect.unit (s := S2000x512) ![0, 128] S2000x128.size inb_S2000x512_S2000x128_0_128).emb x 1).val / 128 = 1 := by
      rw [show ((Rect.unit (s := S2000x512) ![0, 128] S2000x128.size inb_S2000x512_S2000x128_0_128).emb x 1).val = 128 * 1 + (x 1).val from e1]; omega
    have hl : lane ((Rect.unit (s := S2000x512) ![0, 128] S2000x128.size inb_S2000x512_S2000x128_0_128).emb x) = x 1 :=
      Fin.ext (by
        show ((Rect.unit (s := S2000x512) ![0, 128] S2000x128.size inb_S2000x512_S2000x128_0_128).emb x 1).val % 128 = (x 1).val
        rw [show ((Rect.unit (s := S2000x512) ![0, 128] S2000x128.size inb_S2000x512_S2000x128_0_128).emb x 1).val = 128 * 1 + (x 1).val from e1]; omega)
    show k0_pay2 x1 x2 x = blockFn x0 x1 x2 _
    unfold blockFn
    simp only [hq, hl]
    refine congrArg (k0_pay2 x1 x2) ?_
    rw [show (Rect.unit (s := S2000x512) ![0, 128] S2000x128.size inb_S2000x512_S2000x128_0_128).emb x 0 = (⟨(x 0).val, idx2_lt0 x⟩ : Fin 2000) from e0]
    exact eq_ix2 x
  · -- band 0: lanes 0 … 127
    obtain ⟨e0, e1⟩ := blockFn_band x0 x1 x2 0 inb_S2000x512_S2000x128_0_0 x
    have hx1 := idx2_lt1 x
    have hq : ((Rect.unit (s := S2000x512) ![0, 0] S2000x128.size inb_S2000x512_S2000x128_0_0).emb x 1).val / 128 = 0 := by
      rw [show ((Rect.unit (s := S2000x512) ![0, 0] S2000x128.size inb_S2000x512_S2000x128_0_0).emb x 1).val = 128 * 0 + (x 1).val from e1]; omega
    have hl : lane ((Rect.unit (s := S2000x512) ![0, 0] S2000x128.size inb_S2000x512_S2000x128_0_0).emb x) = x 1 :=
      Fin.ext (by
        show ((Rect.unit (s := S2000x512) ![0, 0] S2000x128.size inb_S2000x512_S2000x128_0_0).emb x 1).val % 128 = (x 1).val
        rw [show ((Rect.unit (s := S2000x512) ![0, 0] S2000x128.size inb_S2000x512_S2000x128_0_0).emb x 1).val = 128 * 0 + (x 1).val from e1]; omega)
    show x0 x = blockFn x0 x1 x2 _
    unfold blockFn
    simp only [hq, hl]
    refine congrArg (x0) ?_
    rw [show (Rect.unit (s := S2000x512) ![0, 0] S2000x128.size inb_S2000x512_S2000x128_0_0).emb x 0 = (⟨(x 0).val, idx2_lt0 x⟩ : Fin 2000) from e0]
    exact eq_ix2 x

/-! ## The payloads at an index -/

/-- The counts given a unit third axis and repeated along the lanes read, at `(p, k, l)`, the count at `(p, k)`. -/
theorem counts_lane_apply (x2 : Vec F S2000x3 .f32) (h4 : S2000x3.ShapeCasts S2000x3) (h5 : S2000x3.ShapeCasts S2000x3x1)
    (h6 : S2000x3x1.ShapeCasts S2000x3x1) (h7 : S2000x3x1.Broadcasts S2000x3x128) (p : Fin 2000) (k : Fin 3) (l : Fin 128) :
    broadcastTo S2000x3x128 (shapeCast S2000x3x1 (shapeCast S2000x3x1 (shapeCast S2000x3 x2 h4) h5) h6) h7 (ix3 p k l) = x2 (ix2 p k) := by
  rw [shapeCast_self (shapeCast S2000x3x1 (shapeCast S2000x3 x2 h4) h5) h6, shapeCast_self x2 h4]
  exact Cert.Lib.MidAxis.flag_col_apply x2 h5 h7 p k l

/-- An entry of the block's masked mean reads one count and one sum. -/
theorem pay1_apply (x1 : Vec F S2000x3x128 .f32) (x2 : Vec F S2000x3 .f32) (p : Fin 2000) (k : Fin 3) (l : Fin 128) :
    k0_pay1 x1 x2 (ix3 p k l) = mean1 (x2 (ix2 p k)) (x1 (ix3 p k l)) := by
  unfold k0_pay1
  show mean1 (broadcastTo S2000x3x128 (shapeCast S2000x3x1 (shapeCast S2000x3x1 (shapeCast S2000x3 x2 _) _) _) _ (ix3 p k l))
      (shapeCast S2000x3x128 x1 _ (ix3 p k l)) = _
  exact congr (congrArg mean1 (counts_lane_apply x2 _ _ _ _ p k l)) (congrFun (shapeCast_self x1 _) (ix3 p k l))

/-- Band t+1's payload at `(p, l)` is edge type t's mean at `(p, l)`. -/
theorem pay2_apply (x1 : Vec F S2000x3x128 .f32) (x2 : Vec F S2000x3 .f32) (p : Fin 2000) (l : Fin 128) :
    k0_pay2 x1 x2 (ix2 p l) = mean1 (x2 (ix2 p (0 : Fin 3))) (x1 (ix3 p (0 : Fin 3) l)) := by
  unfold k0_pay2
  exact (Cert.Lib.SideBySide.band_apply 0 (k0_pay1 x1 x2) _ _ p l (0 : Fin 3) rfl).trans (pay1_apply x1 x2 p 0 l)
theorem pay3_apply (x1 : Vec F S2000x3x128 .f32) (x2 : Vec F S2000x3 .f32) (p : Fin 2000) (l : Fin 128) :
    k0_pay3 x1 x2 (ix2 p l) = mean1 (x2 (ix2 p (1 : Fin 3))) (x1 (ix3 p (1 : Fin 3) l)) := by
  unfold k0_pay3
  exact (Cert.Lib.SideBySide.band_apply 1 (k0_pay1 x1 x2) _ _ p l (1 : Fin 3) rfl).trans (pay1_apply x1 x2 p 1 l)
theorem pay4_apply (x1 : Vec F S2000x3x128 .f32) (x2 : Vec F S2000x3 .f32) (p : Fin 2000) (l : Fin 128) :
    k0_pay4 x1 x2 (ix2 p l) = mean1 (x2 (ix2 p (2 : Fin 3))) (x1 (ix3 p (2 : Fin 3) l)) := by
  unfold k0_pay4
  exact (Cert.Lib.SideBySide.band_apply 2 (k0_pay1 x1 x2) _ _ p l (2 : Fin 3) rfl).trans (pay1_apply x1 x2 p 2 l)

/-! ## From blocks to the array -/

variable (m : (ℓ : Loc nD τ sig) → Buf (Elt F) ℓ) (ρ : Dev nD → PrngReg)

/-- The node features, the stacked sums and the stacked counts as the region finds them. -/
abbrev feats (c : Dev nD) : Cert.MeanConcat.Rows.Idx → F .f32 := V m c main_arg0
abbrev sums3 (c : Dev nD) : Cert.MeanConcat.Rows3.Idx → F .f32 := V m c main_v57
abbrev cnts3 (c : Dev nD) : Cert.MeanConcat.Cnt3.Idx → F .f32 := V m c main_v61

/-- Every window moves with the grid point along the rows and sits at block 0 on its other axes (decided over the 50 points). -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of block `t` is row `2000·t + p` of the array. -/
def row (t : Fin cfg0.N) (p : Fin 2000) : Fin 100000 :=
  ⟨2000 * t.val + p.val, by have := t.isLt; have hN : cfg0.N = 50 := N_0; have := p.isLt; omega⟩

theorem iblk0_apply (c : Dev nD) (t : Fin cfg0.N) (p : Fin 2000) (l : Fin 128) :
    iblk m c 0 t (ix2 p l) = feats m c (ix2 (row t p) l) := by
  obtain ⟨e0, e1, -⟩ := idx_facts t
  show V m c main_arg0 (((cfg0.win 0).blk t).view.emb (ix2 p l)) = _
  refine congrArg (V m c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * l.val = l.val; omega

theorem iblk1_apply (c : Dev nD) (t : Fin cfg0.N) (p : Fin 2000) (k : Fin 3) (l : Fin 128) :
    iblk m c 1 t (ix3 p k l) = sums3 m c (ix3 (row t p) k l) := by
  obtain ⟨-, -, e0, e1, e2, -⟩ := idx_facts t
  show V m c main_v57 (((cfg0.win 1).blk t).view.emb (ix3 p k l)) = _
  refine congrArg (V m c main_v57) (funext fun a => Fin.ext ?_)
  match a with
  | ⟨0, _⟩ => show win0_1.index t (0 : Fin 3) * 2000 + 1 * p.val = 2000 * t.val + p.val; omega
  | ⟨1, _⟩ => show win0_1.index t (1 : Fin 3) * 3 + 1 * k.val = k.val; omega
  | ⟨2, _⟩ => show win0_1.index t (2 : Fin 3) * 128 + 1 * l.val = l.val; omega

theorem iblk2_apply (c : Dev nD) (t : Fin cfg0.N) (p : Fin 2000) (k : Fin 3) :
    iblk m c 2 t (ix2 p k) = cnts3 m c (ix2 (row t p) k) := by
  obtain ⟨-, -, -, -, -, e0, e1, -⟩ := idx_facts t
  show V m c main_v61 (((cfg0.win 2).blk t).view.emb (ix2 p k)) = _
  refine congrArg (V m c main_v61) (funext fun a => Fin.ext ?_)
  match a with
  | ⟨0, _⟩ => show win0_2.index t (0 : Fin 2) * 2000 + 1 * p.val = 2000 * t.val + p.val; omega
  | ⟨1, _⟩ => show win0_2.index t (1 : Fin 2) * 3 + 1 * k.val = k.val; omega

/-- Entry `(p, q)` of the output's block `t` is entry `(2000·t + p, q)` of the array. -/
theorem emb3_apply (t : Fin cfg0.N) (p : Fin 2000) (q : Fin 512) :
    ((cfg0.win 3).blk t).view.emb (ix2 p q) = (ix2 (row t p) q : S100000x512.Idx) := by
  obtain ⟨-, -, -, -, -, -, -, e0, e1⟩ := idx_facts t
  refine funext fun a => Fin.ext ?_
  match a with
  | ⟨0, _⟩ => show win0_3.index t (0 : Fin 2) * 2000 + 1 * p.val = 2000 * t.val + p.val; omega
  | ⟨1, _⟩ => show win0_3.index t (1 : Fin 2) * 512 + 1 * q.val = q.val; omega

/-- The block's function at explicit coordinates: the first band, -/
theorem blockFn_lt (x0 : Vec F S2000x128 .f32) (x1 : Vec F S2000x3x128 .f32) (x2 : Vec F S2000x3 .f32)
    (p : Fin 2000) (q : Fin 512) (l : Fin 128) (h : q.val = l.val) : blockFn x0 x1 x2 (ix2 p q) = x0 (ix2 p l) := by
  have hl := l.isLt
  have hq : ((ix2 p q : S2000x512.Idx) 1).val / 128 = 0 := by show q.val / 128 = 0; omega
  have hln : lane (ix2 p q : S2000x512.Idx) = l := Fin.ext (by show q.val % 128 = l.val; omega)
  unfold blockFn
  rw [if_pos hq, hln]

/-- and band `k + 1`: type `k`'s mean of the block's counts and sums. -/
theorem blockFn_band' (x0 : Vec F S2000x128 .f32) (x1 : Vec F S2000x3x128 .f32) (x2 : Vec F S2000x3 .f32)
    (p : Fin 2000) (q : Fin 512) (k : Fin 3) (l : Fin 128) (h : q.val = 128 * (k.val + 1) + l.val) :
    blockFn x0 x1 x2 (ix2 p q) = mean1 (x2 (ix2 p k)) (x1 (ix3 p k l)) := by
  have hl := l.isLt
  have hln : lane (ix2 p q : S2000x512.Idx) = l := Fin.ext (by show q.val % 128 = l.val; omega)
  unfold blockFn
  rw [hln]
  show (if q.val / 128 = 0 then _ else if q.val / 128 = 1 then _ else if q.val / 128 = 2 then _ else _) = _
  match k, h with
  | ⟨0, _⟩, h =>
    have hq : q.val / 128 = 1 := by simp only at h; omega
    rw [if_neg (by omega), if_pos hq]; exact pay2_apply x1 x2 p l
  | ⟨1, _⟩, h =>
    have hq : q.val / 128 = 2 := by simp only at h; omega
    rw [if_neg (by omega), if_neg (by omega), if_pos hq]; exact pay3_apply x1 x2 p l
  | ⟨2, _⟩, h =>
    have hq : q.val / 128 = 3 := by simp only at h; omega
    rw [if_neg (by omega), if_neg (by omega), if_neg (by omega)]; exact pay4_apply x1 x2 p l

/-- What point `t` writes back is block `t` of `stacked` of the arrays the region finds. -/
theorem flushed_eq (c : Dev nD) (t : Fin cfg0.N) :
    (dats m 0 c).flushed 3 t
      = ((cfg0.win 3).blk t).view.read (Elt F) (Cert.MeanConcat.stacked (feats m c) (sums3 m c) (cnts3 m c)) := by
  show (cfg0.win 3).cut (grid0.coords t) ((dats m 0 c).after 3 t) = _
  rw [after0_3]
  unfold outsAt0
  rw [out_eq]
  refine funext fun j => ?_
  show blockFn (iblk m c 0 t) (iblk m c 1 t) (iblk m c 2 t) j
    = Cert.MeanConcat.stacked (feats m c) (sums3 m c) (cnts3 m c) (((cfg0.win 3).blk t).view.emb j)
  obtain ⟨p, q, rfl⟩ : ∃ (p : Fin 2000) (q : Fin 512), j = ix2 p q := ⟨j 0, j 1, eq_ix2 j⟩
  rw [emb3_apply]
  by_cases hq : q.val < 128
  · rw [blockFn_lt _ _ _ p q ⟨q.val, hq⟩ rfl, Cert.MeanConcat.stacked_lt _ _ _ (row t p) q ⟨q.val, hq⟩ rfl]
    exact iblk0_apply m c t p _
  · have hq' := q.isLt
    have hb : q.val = 128 * ((⟨q.val / 128 - 1, by omega⟩ : Fin 3).val + 1) + (⟨q.val % 128, Nat.mod_lt _ (by decide)⟩ : Fin 128).val := by
      show q.val = 128 * (q.val / 128 - 1 + 1) + q.val % 128; omega
    rw [blockFn_band' _ _ _ p q _ _ hb, Cert.MeanConcat.stacked_band _ _ _ (row t p) q _ _ hb]
    exact congr (congrArg mean1 (iblk2_apply m c t p _)) (iblk1_apply m c t p _ _)

/-- Every entry of the result array lies in the block of the point that owns its row. -/
theorem covered (i : S100000x512.Idx) :
    ∃ t : Fin cfg0.N, (cfg0.win 3).flush t = true ∧ i ∈ ((cfg0.win 3).blk t).view.set := by
  have hN : cfg0.N = 50 := N_0
  have hi0 := idx2_lt0 i
  have hi1 := idx2_lt1 i
  let t : Fin cfg0.N := ⟨(i 0).val / 2000, by omega⟩
  obtain ⟨-, -, -, -, -, -, -, e0, e1⟩ := idx_facts t
  have ht : t.val = (i 0).val / 2000 := rfl
  refine ⟨t, flush0_3 t, ?_⟩
  show i ∈ ((View.whole main_v62).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 512 ≤ (i 1).val ∧ (i 1).val < win0_3.index t (1 : Fin 2) * 512 + 512
    omega

/-- The result array after the run. -/
theorem final3 (c : Dev nD) :
    (dats m 0 c).arrAt 3 cfg0.N = Cert.MeanConcat.stacked (feats m c) (sums3 m c) (cnts3 m c) :=
  (dats m 0 c).arrAt_eq_of_cover 3 _ (fun t _ => flushed_eq m c t) covered

/-- The run, read: the result array at `stacked` of what the region finds, the arguments unchanged. -/
theorem run : θ_run defs (onTc (τ := τ) (main (F := F))) ⟨m, fun _ => 0, ρ⟩ fun r => ∀ c : Dev nD,
      r.2.mem ((c : Thread nD τ).loc main_v62) = Cert.MeanConcat.stacked (feats m c) (sums3 m c) (cnts3 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Region

end
-- ==== Proof.KernelIdealHost.lean ====
/-
  What the region of the idealized kernel finds in its two stacked operands, in terms of the launch arrays.

  Before the region the host computes, for each edge type t = 0, 1, 2: the sources (slice [t, 0, :] of the edge list)
  and destinations (slice [t, 1, :]), the sources wrapped (a negative index has the node count added), the rows of the
  node features gathered at the wrapped sources, their scatter-add into a zero [100000, 128] array at the destinations
  (`sumOf`), and the scatter-add of ones into a zero [100000] array at the destinations (`cntOf`). The last eight host
  operations give each sum a unit middle axis and each count a unit second axis and lay the three of each side by side.

  So the stacked sums read, at (r, k, l), type k's sum at (r, l), and the stacked counts at (r, k) type k's count at r.
  The first 69 operations are read as one valuation (never opened for the stacking); each sum and count is then read off
  the whole line, on which no later operation writes its buffer.
-/
import proofs.«121044_j28295244546274_1_alg».proof.Proof.KernelIdealKit
import proofs.«121044_j28295244546274_1_alg».proof.Proof.LibSideBySide
import proofs.«121044_j28295244546274_1_alg».proof.Proof.LibHostLine
import Idealize.ShloMosaic.Lib.StableHlo.Run
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.StableHlo Idealize.ShloMosaic.ValueIdx
open Idealize.SL Idealize.SL.Sem
open Cert.Lib.HostLine

variable {F : FTy → Type} [FloatOps F]

/-! ## The host's terms -/

/-- Row `[t, s, :]` of the edge list as a vector of 1000000 indices. -/
def edgeRow (e : IVec S3x2x1000000 32) (off : Fin 3 → Nat) (hs : S3x2x1000000.Slices off S1x1x1000000) : IVec S1000000 32 :=
  shapeCast S1000000 (extractStridedSlice S1x1x1000000 off e hs) shapeCasts_S1x1x1000000_S1000000

/-- A negative index counts from the end: the node count is added to it. -/
def wrapIdx (a : IVec S1000000 32) : IVec S1000000 32 :=
  select (cmpi .slt a (broadcastInDim S1000000 ![] bcast_S_S1000000 (constantI S_ 32 0#32)))
    (addi a (broadcastInDim S1000000 ![] bcast_S_S1000000 (constantI S_ 32 100000#32))) a

/-- An index vector as the one column of an index matrix. -/
def colIdx (a : IVec S1000000 32) : IVec S1000000x1 32 := broadcastInDim S1000000x1 ![0] bcast_S1000000_S1000000x1_0 a

/-- One edge type's sums: the features gathered at the sources, scatter-added at the destinations into zeros. -/
def sumOf (x : FVec F S100000x128 .f32) (src dst : IVec S1000000 32) : FVec F S100000x128 .f32 :=
  Host.scatterAdd scatter_S100000x128_S1000000x1_S1000000x128_1_0_0_1
    (broadcastInDim S100000x128 ![] bcast_S_S100000x128 (constant S_ .f32 0x00000000#32)) (colIdx dst)
    (Host.gather gather_S100000x128_S1000000x1_S1000000x128_1_0_n_n_0_1_1128 x (colIdx (wrapIdx src)))

/-- One edge type's counts: ones scatter-added at the destinations into zeros. -/
def cntOf (dst : IVec S1000000 32) : FVec F S100000 .f32 :=
  Host.scatterAdd scatter_S100000_S1000000x1_S1000000_n_0_0_1
    (broadcastInDim S100000 ![] bcast_S_S100000 (constant S_ .f32 0x00000000#32)) (colIdx dst)
    (broadcastInDim S1000000 ![] bcast_S_S1000000 (constant S_ .f32 0x3F800000#32))

variable (m : (ℓ : Loc nD τ sig) → Buf (Elt F) ℓ)

/-! ## The line of host operations, cut before the two stackings -/

/-- The last eight host operations: a unit middle axis for each sum and their join, a unit second axis for each count and
    their join. -/
abbrev stackOps : List (HloOp τ sig (Elt F)) := (hostOps0 (F := F)).drop 69

/-- The buffers after the first 69 host operations. -/
def W69 (c : Dev nD) : Valuation τ sig (Elt F) := after ((hostOps0 (F := F)).take 69) (fun b => m (c, b))

theorem V_split (c : Dev nD) (b : Ref sig .tc) : V m c b = after stackOps (W69 m c) b := by
  show after hostOps0 (fun b => m (c, b)) b = after ((hostOps0 (F := F)).drop 69) (after ((hostOps0 (F := F)).take 69) (fun b => m (c, b))) b
  rw [← after_append, List.take_append_drop]

/-! ## The eight stacking operations, one by one -/

abbrev op54 : HloOp τ sig (Elt F) := StableHlo.unary main_v13 main_v54 (broadcastInDim S100000x1x128 ![0, 2] bcast_S100000x128_S100000x1x128_0_2 : (⟨S100000x128, .f32⟩ : BufTy).Contents (Elt F) → (⟨S100000x1x128, .f32⟩ : BufTy).Contents (Elt F))
abbrev op55 : HloOp τ sig (Elt F) := StableHlo.unary main_v31 main_v55 (broadcastInDim S100000x1x128 ![0, 2] bcast_S100000x128_S100000x1x128_0_2 : (⟨S100000x128, .f32⟩ : BufTy).Contents (Elt F) → (⟨S100000x1x128, .f32⟩ : BufTy).Contents (Elt F))
abbrev op56 : HloOp τ sig (Elt F) := StableHlo.unary main_v49 main_v56 (broadcastInDim S100000x1x128 ![0, 2] bcast_S100000x128_S100000x1x128_0_2 : (⟨S100000x128, .f32⟩ : BufTy).Contents (Elt F) → (⟨S100000x1x128, .f32⟩ : BufTy).Contents (Elt F))
abbrev op57 : HloOp τ sig (Elt F) := StableHlo.nary ![main_v54, main_v55, main_v56] main_v57 (fun u => concatenate S100000x3x128 1 [⟨S100000x1x128, u 0⟩, ⟨S100000x1x128, u 1⟩, ⟨S100000x1x128, u 2⟩] concatenates_S100000x1x128_S100000x1x128_S100000x1x128_S100000x3x128_d1)
abbrev op58 : HloOp τ sig (Elt F) := StableHlo.unary main_v17 main_v58 (broadcastInDim S100000x1 ![0] bcast_S100000_S100000x1_0 : (⟨S100000, .f32⟩ : BufTy).Contents (Elt F) → (⟨S100000x1, .f32⟩ : BufTy).Contents (Elt F))
abbrev op59 : HloOp τ sig (Elt F) := StableHlo.unary main_v35 main_v59 (broadcastInDim S100000x1 ![0] bcast_S100000_S100000x1_0 : (⟨S100000, .f32⟩ : BufTy).Contents (Elt F) → (⟨S100000x1, .f32⟩ : BufTy).Contents (Elt F))
abbrev op60 : HloOp τ sig (Elt F) := StableHlo.unary main_v53 main_v60 (broadcastInDim S100000x1 ![0] bcast_S100000_S100000x1_0 : (⟨S100000, .f32⟩ : BufTy).Contents (Elt F) → (⟨S100000x1, .f32⟩ : BufTy).Contents (Elt F))
abbrev op61 : HloOp τ sig (Elt F) := StableHlo.nary ![main_v58, main_v59, main_v60] main_v61 (fun u => concatenate S100000x3 1 [⟨S100000x1, u 0⟩, ⟨S100000x1, u 1⟩, ⟨S100000x1, u 2⟩] concatenates_S100000x1_S100000x1_S100000x1_S100000x3_d1)

/-- The last eight host operations are these. -/
theorem stackOps_eq : (stackOps : List (HloOp τ sig (Elt F))) = [op54, op55, op56, op57, op58, op59, op60, op61] := rfl

/-- After the stacking, the stacked sums are the three sums (as the first 69 operations left them), each with a unit middle
    axis, side by side. -/
theorem stack_sums (G : Valuation τ sig (Elt F)) :
    after [op54, op55, op56, op57, op58, op59, op60, op61] G (Proc.devRef .tc main_v57)
      = concatenate S100000x3x128 1
          [⟨S100000x1x128, broadcastInDim S100000x1x128 ![0, 2] bcast_S100000x128_S100000x1x128_0_2 (G (Proc.devRef .tc main_v13))⟩,
           ⟨S100000x1x128, broadcastInDim S100000x1x128 ![0, 2] bcast_S100000x128_S100000x1x128_0_2 (G (Proc.devRef .tc main_v31))⟩,
           ⟨S100000x1x128, broadcastInDim S100000x1x128 ![0, 2] bcast_S100000x128_S100000x1x128_0_2 (G (Proc.devRef .tc main_v49))⟩]
          concatenates_S100000x1x128_S100000x1x128_S100000x1x128_S100000x3x128_d1 := by
  simp only [after_cons, after_nil]
  rw [nary_result_ne]; rotate_left; decide
  rw [unary_result_ne]; rotate_left; decide
  rw [unary_result_ne]; rotate_left; decide
  rw [unary_result_ne]; rotate_left; decide
  rw [nary3_result]
  refine cat3_congr _ ?_ ?_ ?_
  · show (op56.result (op55.result (op54.result G))) (Proc.devRef .tc main_v54) = _
    rw [unary_result_ne]; rotate_left; decide
    rw [unary_result_ne]; rotate_left; decide
    rw [unary_result]
  · show (op56.result (op55.result (op54.result G))) (Proc.devRef .tc main_v55) = _
    rw [unary_result_ne]; rotate_left; decide
    rw [unary_result]
    rw [unary_result_ne]; rotate_left; decide
  · show (op56.result (op55.result (op54.result G))) (Proc.devRef .tc main_v56) = _
    rw [unary_result]
    rw [unary_result_ne]; rotate_left; decide
    rw [unary_result_ne]; rotate_left; decide

/-- After the stacking, the stacked counts are the three counts, each as a column, side by side. -/
theorem stack_cnts (G : Valuation τ sig (Elt F)) :
    after [op54, op55, op56, op57, op58, op59, op60, op61] G (Proc.devRef .tc main_v61)
      = concatenate S100000x3 1
          [⟨S100000x1, broadcastInDim S100000x1 ![0] bcast_S100000_S100000x1_0 (G (Proc.devRef .tc main_v17))⟩,
           ⟨S100000x1, broadcastInDim S100000x1 ![0] bcast_S100000_S100000x1_0 (G (Proc.devRef .tc main_v35))⟩,
           ⟨S100000x1, broadcastInDim S100000x1 ![0] bcast_S100000_S100000x1_0 (G (Proc.devRef .tc main_v53))⟩]
          concatenates_S100000x1_S100000x1_S100000x1_S100000x3_d1 := by
  simp only [after_cons, after_nil]
  rw [nary3_result]
  refine cat3_congr _ ?_ ?_ ?_
  · show (op60.result (op59.result (op58.result (op57.result (op56.result (op55.result (op54.result G))))))) (Proc.devRef .tc main_v58) = _
    rw [unary_result_ne]; rotate_left; decide
    rw [unary_result_ne]; rotate_left; decide
    rw [unary_result]
    rw [nary_result_ne]; rotate_left; decide
    rw [unary_result_ne]; rotate_left; decide
    rw [unary_result_ne]; rotate_left; decide
    rw [unary_result_ne]; rotate_left; decide
  · show (op60.result (op59.result (op58.result (op57.result (op56.result (op55.result (op54.result G))))))) (Proc.devRef .tc main_v59) = _
    rw [unary_result_ne]; rotate_left; decide
    rw [unary_result]
    rw [unary_result_ne]; rotate_left; decide
    rw [nary_result_ne]; rotate_left; decide
    rw [unary_result_ne]; rotate_left; decide
    rw [unary_result_ne]; rotate_left; decide
    rw [unary_result_ne]; rotate_left; decide
  · show (op60.result (op59.result (op58.result (op57.result (op56.result (op55.result (op54.result G))))))) (Proc.devRef .tc main_v60) = _
    rw [unary_result]
    rw [unary_result_ne]; rotate_left; decide
    rw [unary_result_ne]; rotate_left; decide
    rw [nary_result_ne]; rotate_left; decide
    rw [unary_result_ne]; rotate_left; decide
    rw [unary_result_ne]; rotate_left; decide
    rw [unary_result_ne]; rotate_left; decide

/-! ## The stacking operations write none of the sums and counts -/

theorem W_v13 (c : Dev nD) : W69 m c (Proc.devRef .tc main_v13) = V m c main_v13 := by
  rw [V_split m c main_v13]
  refine (StableHlo.after_of_forall_not_mem (b := Proc.devRef .tc main_v13) _ _ (List.forall_iff_forall_mem.mp ?_)).symm
  simp only [stackOps_eq, List.Forall, StableHlo.unary_writes, StableHlo.nary_writes, Finset.mem_singleton]
  repeat' apply And.intro
  all_goals exact StableHlo.devRef_ne_of_ne (by decide)

theorem W_v31 (c : Dev nD) : W69 m c (Proc.devRef .tc main_v31) = V m c main_v31 := by
  rw [V_split m c main_v31]
  refine (StableHlo.after_of_forall_not_mem (b := Proc.devRef .tc main_v31) _ _ (List.forall_iff_forall_mem.mp ?_)).symm
  simp only [stackOps_eq, List.Forall, StableHlo.unary_writes, StableHlo.nary_writes, Finset.mem_singleton]
  repeat' apply And.intro
  all_goals exact StableHlo.devRef_ne_of_ne (by decide)

theorem W_v49 (c : Dev nD) : W69 m c (Proc.devRef .tc main_v49) = V m c main_v49 := by
  rw [V_split m c main_v49]
  refine (StableHlo.after_of_forall_not_mem (b := Proc.devRef .tc main_v49) _ _ (List.forall_iff_forall_mem.mp ?_)).symm
  simp only [stackOps_eq, List.Forall, StableHlo.unary_writes, StableHlo.nary_writes, Finset.mem_singleton]
  repeat' apply And.intro
  all_goals exact StableHlo.devRef_ne_of_ne (by decide)

theorem W_v17 (c : Dev nD) : W69 m c (Proc.devRef .tc main_v17) = V m c main_v17 := by
  rw [V_split m c main_v17]
  refine (StableHlo.after_of_forall_not_mem (b := Proc.devRef .tc main_v17) _ _ (List.forall_iff_forall_mem.mp ?_)).symm
  simp only [stackOps_eq, List.Forall, StableHlo.unary_writes, StableHlo.nary_writes, Finset.mem_singleton]
  repeat' apply And.intro
  all_goals exact StableHlo.devRef_ne_of_ne (by decide)

theorem W_v35 (c : Dev nD) : W69 m c (Proc.devRef .tc main_v35) = V m c main_v35 := by
  rw [V_split m c main_v35]
  refine (StableHlo.after_of_forall_not_mem (b := Proc.devRef .tc main_v35) _ _ (List.forall_iff_forall_mem.mp ?_)).symm
  simp only [stackOps_eq, List.Forall, StableHlo.unary_writes, StableHlo.nary_writes, Finset.mem_singleton]
  repeat' apply And.intro
  all_goals exact StableHlo.devRef_ne_of_ne (by decide)

theorem W_v53 (c : Dev nD) : W69 m c (Proc.devRef .tc main_v53) = V m c main_v53 := by
  rw [V_split m c main_v53]
  refine (StableHlo.after_of_forall_not_mem (b := Proc.devRef .tc main_v53) _ _ (List.forall_iff_forall_mem.mp ?_)).symm
  simp only [stackOps_eq, List.Forall, StableHlo.unary_writes, StableHlo.nary_writes, Finset.mem_singleton]
  repeat' apply And.intro
  all_goals exact StableHlo.devRef_ne_of_ne (by decide)

/-! ## The two stacked operands at an index -/

/-- The stacked sums as the region finds them: the three sums side by side along the middle axis. -/
theorem V_sums3 (c : Dev nD) :
    V m c main_v57 = concatenate S100000x3x128 1
          [⟨S100000x1x128, broadcastInDim S100000x1x128 ![0, 2] bcast_S100000x128_S100000x1x128_0_2 (V m c main_v13)⟩,
           ⟨S100000x1x128, broadcastInDim S100000x1x128 ![0, 2] bcast_S100000x128_S100000x1x128_0_2 (V m c main_v31)⟩,
           ⟨S100000x1x128, broadcastInDim S100000x1x128 ![0, 2] bcast_S100000x128_S100000x1x128_0_2 (V m c main_v49)⟩]
          concatenates_S100000x1x128_S100000x1x128_S100000x1x128_S100000x3x128_d1 := by
  rw [V_split m c main_v57, ← W_v13 m c, ← W_v31 m c, ← W_v49 m c]
  exact stack_sums (W69 m c)

/-- The stacked counts as the region finds them: the three counts side by side. -/
theorem V_cnts3 (c : Dev nD) :
    V m c main_v61 = concatenate S100000x3 1
          [⟨S100000x1, broadcastInDim S100000x1 ![0] bcast_S100000_S100000x1_0 (V m c main_v17)⟩,
           ⟨S100000x1, broadcastInDim S100000x1 ![0] bcast_S100000_S100000x1_0 (V m c main_v35)⟩,
           ⟨S100000x1, broadcastInDim S100000x1 ![0] bcast_S100000_S100000x1_0 (V m c main_v53)⟩]
          concatenates_S100000x1_S100000x1_S100000x1_S100000x3_d1 := by
  rw [V_split m c main_v61, ← W_v17 m c, ← W_v35 m c, ← W_v53 m c]
  exact stack_cnts (W69 m c)

/-! ## Each sum and count, read off the whole line -/

set_option maxHeartbeats 4000000

/-- Edge type 0's sums, as the region finds them. -/
theorem V_sum0 (c : Dev nD) :
    V m c main_v13 = sumOf (m ((c : Thread nD τ).loc main_arg0))
      (edgeRow (m ((c : Thread nD τ).loc main_arg1)) ![0, 0, 0] slices_S3x2x1000000_S1x1x1000000_0_0_0)
      (edgeRow (m ((c : Thread nD τ).loc main_arg1)) ![0, 1, 0] slices_S3x2x1000000_S1x1x1000000_0_1_0) := by
  dsimp only [V, hostOps0]
  after_results_simp <;> rfl

/-- Edge type 0's counts, as the region finds them. -/
theorem V_cnt0 (c : Dev nD) :
    V m c main_v17 = cntOf (edgeRow (m ((c : Thread nD τ).loc main_arg1)) ![0, 1, 0] slices_S3x2x1000000_S1x1x1000000_0_1_0) := by
  dsimp only [V, hostOps0]
  after_results_simp <;> rfl

/-- Edge type 1's sums, as the region finds them. -/
theorem V_sum1 (c : Dev nD) :
    V m c main_v31 = sumOf (m ((c : Thread nD τ).loc main_arg0))
      (edgeRow (m ((c : Thread nD τ).loc main_arg1)) ![1, 0, 0] slices_S3x2x1000000_S1x1x1000000_1_0_0)
      (edgeRow (m ((c : Thread nD τ).loc main_arg1)) ![1, 1, 0] slices_S3x2x1000000_S1x1x1000000_1_1_0) := by
  dsimp only [V, hostOps0]
  after_results_simp <;> rfl

/-- Edge type 1's counts, as the region finds them. -/
theorem V_cnt1 (c : Dev nD) :
    V m c main_v35 = cntOf (edgeRow (m ((c : Thread nD τ).loc main_arg1)) ![1, 1, 0] slices_S3x2x1000000_S1x1x1000000_1_1_0) := by
  dsimp only [V, hostOps0]
  after_results_simp <;> rfl

/-- Edge type 2's sums, as the region finds them. -/
theorem V_sum2 (c : Dev nD) :
    V m c main_v49 = sumOf (m ((c : Thread nD τ).loc main_arg0))
      (edgeRow (m ((c : Thread nD τ).loc main_arg1)) ![2, 0, 0] slices_S3x2x1000000_S1x1x1000000_2_0_0)
      (edgeRow (m ((c : Thread nD τ).loc main_arg1)) ![2, 1, 0] slices_S3x2x1000000_S1x1x1000000_2_1_0) := by
  dsimp only [V, hostOps0]
  after_results_simp <;> rfl

/-- Edge type 2's counts, as the region finds them. -/
theorem V_cnt2 (c : Dev nD) :
    V m c main_v53 = cntOf (edgeRow (m ((c : Thread nD τ).loc main_arg1)) ![2, 1, 0] slices_S3x2x1000000_S1x1x1000000_2_1_0) := by
  dsimp only [V, hostOps0]
  after_results_simp <;> rfl

end Cert.KernelIdeal.Region

end
-- ==== Proof.KernelIdealResult.lean ====
/-
  The idealized kernel's result in terms of the launch arrays.

  The run leaves the result array at `stacked` of the node features, the stacked sums and the stacked counts as the
  region finds them. The stacked operands are the three types' sums and counts side by side, so the result is `perType`
  of the features and the six arrays; and each of those is the host's gather / scatter-add term of the launch arrays.
-/
import proofs.«121044_j28295244546274_1_alg».proof.Proof.KernelIdealValue
import proofs.«121044_j28295244546274_1_alg».proof.Proof.KernelIdealHost

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Cert.MeanConcat (stacked perType)

variable {F : FTy → Type} [FloatOps F]
variable (m : (ℓ : Loc nD τ sig) → Buf (Elt F) ℓ) (ρ : Dev nD → PrngReg)

/-- The stacked operands are the three types' sums and counts side by side: the result is the per-type one. -/
theorem stacked_is_perType (c : Dev nD) :
    stacked (feats m c) (sums3 m c) (cnts3 m c)
      = perType (feats m c) (V m c main_v13) (V m c main_v31) (V m c main_v49) (V m c main_v17) (V m c main_v35) (V m c main_v53) :=
  Cert.MeanConcat.stacked_eq_perType _ _ _ _ _ _ _ _ _
    (fun r l => (congrFun (V_sums3 m c) (ix3 r (0 : Fin 3) l)).trans (Cert.Lib.SideBySide.stack_mid_0 _ _ _ _ _ r l))
    (fun r l => (congrFun (V_sums3 m c) (ix3 r (1 : Fin 3) l)).trans (Cert.Lib.SideBySide.stack_mid_1 _ _ _ _ _ r l))
    (fun r l => (congrFun (V_sums3 m c) (ix3 r (2 : Fin 3) l)).trans (Cert.Lib.SideBySide.stack_mid_2 _ _ _ _ _ r l))
    (fun r => (congrFun (V_cnts3 m c) (ix2 r (0 : Fin 3))).trans (Cert.Lib.SideBySide.stack_col_0 _ _ _ _ _ r))
    (fun r => (congrFun (V_cnts3 m c) (ix2 r (1 : Fin 3))).trans (Cert.Lib.SideBySide.stack_col_1 _ _ _ _ _ r))
    (fun r => (congrFun (V_cnts3 m c) (ix2 r (2 : Fin 3))).trans (Cert.Lib.SideBySide.stack_col_2 _ _ _ _ _ r))

/-- The result of the launch arrays. -/
abbrev resultOf (c : Dev nD) : Cert.MeanConcat.Out.Idx → F .f32 :=
  perType (m ((c : Thread nD τ).loc main_arg0)) (sumOf (m ((c : Thread nD τ).loc main_arg0)) (edgeRow (m ((c : Thread nD τ).loc main_arg1)) ![0, 0, 0] slices_S3x2x1000000_S1x1x1000000_0_0_0) (edgeRow (m ((c : Thread nD τ).loc main_arg1)) ![0, 1, 0] slices_S3x2x1000000_S1x1x1000000_0_1_0)) (sumOf (m ((c : Thread nD τ).loc main_arg0)) (edgeRow (m ((c : Thread nD τ).loc main_arg1)) ![1, 0, 0] slices_S3x2x1000000_S1x1x1000000_1_0_0) (edgeRow (m ((c : Thread nD τ).loc main_arg1)) ![1, 1, 0] slices_S3x2x1000000_S1x1x1000000_1_1_0)) (sumOf (m ((c : Thread nD τ).loc main_arg0)) (edgeRow (m ((c : Thread nD τ).loc main_arg1)) ![2, 0, 0] slices_S3x2x1000000_S1x1x1000000_2_0_0) (edgeRow (m ((c : Thread nD τ).loc main_arg1)) ![2, 1, 0] slices_S3x2x1000000_S1x1x1000000_2_1_0)) (cntOf (F := F) (edgeRow (m ((c : Thread nD τ).loc main_arg1)) ![0, 1, 0] slices_S3x2x1000000_S1x1x1000000_0_1_0)) (cntOf (F := F) (edgeRow (m ((c : Thread nD τ).loc main_arg1)) ![1, 1, 0] slices_S3x2x1000000_S1x1x1000000_1_1_0)) (cntOf (F := F) (edgeRow (m ((c : Thread nD τ).loc main_arg1)) ![2, 1, 0] slices_S3x2x1000000_S1x1x1000000_2_1_0))

theorem stacked_eq_resultOf (c : Dev nD) : stacked (feats m c) (sums3 m c) (cnts3 m c) = resultOf m c := by
  rw [stacked_is_perType]
  show perType (V m c main_arg0) _ _ _ _ _ _ = _
  rw [V_main_arg0, V_sum0, V_sum1, V_sum2, V_cnt0, V_cnt1, V_cnt2]

/-- The run, read over the launch arrays. -/
theorem run_result : θ_run defs (onTc (τ := τ) (main (F := F))) ⟨m, fun _ => 0, ρ⟩ fun r => ∀ c : Dev nD,
      r.2.mem ((c : Thread nD τ).loc main_v62) = resultOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (stacked_eq_resultOf m c), (h c).2⟩) (run m ρ)

end Cert.KernelIdeal.Region

end
-- ==== Proof.ReferenceRun.lean ====
/-
  The reference program's run, read back.

  @main of the reference is a straight line of 112 host operations (the three calls of the outlined `where` stand as their
  three operations each, over the call's own buffers): every weakly fair execution terminates, each buffer ending at the
  fold of the operations' results over the launch contents (`after ops`), and no operation writes an argument array.
  The last operation joins the node features and the three means along the lanes; the line is cut before it, so that the
  joined result is the join of what the first 111 operations left.
-/
import proofs.«121044_j28295244546274_1_alg».proof.Proof.Gen.ReferenceIdeal
import proofs.«121044_j28295244546274_1_alg».proof.Proof.LibHostLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Lib.HostLine

variable {F : FTy → Type} [FloatOps F]

/-- @main's operations but the last, in order. -/
abbrev opsPre : List (HloOp τ sig (Elt F)) :=
  [ StableHlo.unary main_arg1 main_v0 ((extractStridedSlice S1x1x1000000 ![0, 0, 0] · slices_S3x2x1000000_S1x1x1000000_0_0_0) : (⟨S3x2x1000000, .i32⟩ : BufTy).Contents (Elt F) → (⟨S1x1x1000000, .i32⟩ : BufTy).Contents (Elt F)),
    StableHlo.reshape main_v0 main_v1 rfl shapeCasts_S1x1x1000000_S1000000,
    StableHlo.unary main_arg1 main_v2 ((extractStridedSlice S1x1x1000000 ![0, 1, 0] · slices_S3x2x1000000_S1x1x1000000_0_1_0) : (⟨S3x2x1000000, .i32⟩ : BufTy).Contents (Elt F) → (⟨S1x1x1000000, .i32⟩ : BufTy).Contents (Elt F)),
    StableHlo.reshape main_v2 main_v3 rfl shapeCasts_S1x1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_1 (constant S_ .f32 0x3F800000#32),
    StableHlo.unary main_cst_1 main_v14 (broadcastInDim S1000000 ![] bcast_S_S1000000 : (⟨S_, .f32⟩ : BufTy).Contents (Elt F) → (⟨S1000000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.unary main_v17 main_v18 (broadcastInDim S100000x1 ![0] bcast_S100000_S100000x1_0 : (⟨S100000, .f32⟩ : BufTy).Contents (Elt F) → (⟨S100000x1, .f32⟩ : BufTy).Contents (Elt F)),
    StableHlo.nullary main_cst_3 (constant S_ .f32 0x00000000#32),
    StableHlo.unary main_cst_3 main_v19 (broadcastInDim S100000x1 ![] bcast_S_S100000x1 : (⟨S_, .f32⟩ : BufTy).Contents (Elt F) → (⟨S100000x1, .f32⟩ : BufTy).Contents (Elt F)),
    StableHlo.binary main_v18 main_v19 main_v20 (cmpf .ogt : (⟨S100000x1, .f32⟩ : BufTy).Contents (Elt F) → (⟨S100000x1, .f32⟩ : BufTy).Contents (Elt F) → (⟨S100000x1, .i1⟩ : BufTy).Contents (Elt F)),
    StableHlo.nullary main_cst_4 (constant S_ .f32 0x3F800000#32),
    StableHlo.unary main_cst_4 main_v21 (broadcastInDim S100000 ![] bcast_S_S100000 : (⟨S_, .f32⟩ : BufTy).Contents (Elt F) → (⟨S100000, .f32⟩ : BufTy).Contents (Elt F)),
    StableHlo.binary main_v17 main_v21 main_v22 (maximumf : (⟨S100000, .f32⟩ : BufTy).Contents (Elt F) → (⟨S100000, .f32⟩ : BufTy).Contents (Elt F) → (⟨S100000, .f32⟩ : BufTy).Contents (Elt F)),
    StableHlo.unary main_v22 main_v23 (broadcastInDim S100000x1 ![0] bcast_S100000_S100000x1_0 : (⟨S100000, .f32⟩ : BufTy).Contents (Elt F) → (⟨S100000x1, .f32⟩ : BufTy).Contents (Elt F)),
    StableHlo.unary main_v23 main_v24 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v24 main_v25 (Host.divf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.TRef.unary (StableHlo.TRef.of (T := ⟨S100000x1, .i1⟩) main_v20) main_call0.v0 (broadcastInDim S100000x128 ![0, 1] bcast_S100000x1_S100000x128_0_1),
    StableHlo.TRef.unary (StableHlo.TRef.of (T := ⟨S_, .f32⟩) main_cst_5) main_call0.v1 (broadcastInDim S100000x128 ![] bcast_S_S100000x128),
    StableHlo.TRef.ternary main_call0.v0 (StableHlo.TRef.of (T := ⟨S100000x128, .f32⟩) main_v25) main_call0.v1 main_call0.v2 select,
    StableHlo.unary main_arg1 main_v27 ((extractStridedSlice S1x1x1000000 ![1, 0, 0] · slices_S3x2x1000000_S1x1x1000000_1_0_0) : (⟨S3x2x1000000, .i32⟩ : BufTy).Contents (Elt F) → (⟨S1x1x1000000, .i32⟩ : BufTy).Contents (Elt F)),
    StableHlo.reshape main_v27 main_v28 rfl shapeCasts_S1x1x1000000_S1000000,
    StableHlo.unary main_arg1 main_v29 ((extractStridedSlice S1x1x1000000 ![1, 1, 0] · slices_S3x2x1000000_S1x1x1000000_1_1_0) : (⟨S3x2x1000000, .i32⟩ : BufTy).Contents (Elt F) → (⟨S1x1x1000000, .i32⟩ : BufTy).Contents (Elt F)),
    StableHlo.reshape main_v29 main_v30 rfl shapeCasts_S1x1x1000000_S1000000,
    StableHlo.nullary main_c_6 (constantI S_ 32 0#32),
    StableHlo.unary main_c_6 main_v31 (broadcastInDim S1000000 ![] bcast_S_S1000000 : (⟨S_, .i32⟩ : BufTy).Contents (Elt F) → (⟨S1000000, .i32⟩ : BufTy).Contents (Elt F)),
    StableHlo.binary main_v28 main_v31 main_v32 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v33 (broadcastInDim S1000000 ![] bcast_S_S1000000 : (⟨S_, .i32⟩ : BufTy).Contents (Elt F) → (⟨S1000000, .i32⟩ : BufTy).Contents (Elt F)),
    StableHlo.binary main_v28 main_v33 main_v34 (addi : (⟨S1000000, .i32⟩ : BufTy).Contents (Elt F) → (⟨S1000000, .i32⟩ : BufTy).Contents (Elt F) → (⟨S1000000, .i32⟩ : BufTy).Contents (Elt F)),
    StableHlo.ternary main_v32 main_v34 main_v28 main_v35 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v35 main_v36 (broadcastInDim S1000000x1 ![0] bcast_S1000000_S1000000x1_0 : (⟨S1000000, .i32⟩ : BufTy).Contents (Elt F) → (⟨S1000000x1, .i32⟩ : BufTy).Contents (Elt F)),
    StableHlo.binary main_arg0 main_v36 main_v37 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_8 (constant S_ .f32 0x00000000#32),
    StableHlo.unary main_cst_8 main_v38 (broadcastInDim S100000x128 ![] bcast_S_S100000x128 : (⟨S_, .f32⟩ : BufTy).Contents (Elt F) → (⟨S100000x128, .f32⟩ : BufTy).Contents (Elt F)),
    StableHlo.unary main_v30 main_v39 (broadcastInDim S1000000x1 ![0] bcast_S1000000_S1000000x1_0 : (⟨S1000000, .i32⟩ : BufTy).Contents (Elt F) → (⟨S1000000x1, .i32⟩ : BufTy).Contents (Elt F)),
    StableHlo.ternary main_v38 main_v39 main_v37 main_v40 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_9 (constant S_ .f32 0x3F800000#32),
    StableHlo.unary main_cst_9 main_v41 (broadcastInDim S1000000 ![] bcast_S_S1000000 : (⟨S_, .f32⟩ : BufTy).Contents (Elt F) → (⟨S1000000, .f32⟩ : BufTy).Contents (Elt F)),
    StableHlo.nullary main_cst_10 (constant S_ .f32 0x00000000#32),
    StableHlo.unary main_cst_10 main_v42 (broadcastInDim S100000 ![] bcast_S_S100000 : (⟨S_, .f32⟩ : BufTy).Contents (Elt F) → (⟨S100000, .f32⟩ : BufTy).Contents (Elt F)),
    StableHlo.unary main_v30 main_v43 (broadcastInDim S1000000x1 ![0] bcast_S1000000_S1000000x1_0 : (⟨S1000000, .i32⟩ : BufTy).Contents (Elt F) → (⟨S1000000x1, .i32⟩ : BufTy).Contents (Elt F)),
    StableHlo.ternary main_v42 main_v43 main_v41 main_v44 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.unary main_v44 main_v45 (broadcastInDim S100000x1 ![0] bcast_S100000_S100000x1_0 : (⟨S100000, .f32⟩ : BufTy).Contents (Elt F) → (⟨S100000x1, .f32⟩ : BufTy).Contents (Elt F)),
    StableHlo.nullary main_cst_11 (constant S_ .f32 0x00000000#32),
    StableHlo.unary main_cst_11 main_v46 (broadcastInDim S100000x1 ![] bcast_S_S100000x1 : (⟨S_, .f32⟩ : BufTy).Contents (Elt F) → (⟨S100000x1, .f32⟩ : BufTy).Contents (Elt F)),
    StableHlo.binary main_v45 main_v46 main_v47 (cmpf .ogt : (⟨S100000x1, .f32⟩ : BufTy).Contents (Elt F) → (⟨S100000x1, .f32⟩ : BufTy).Contents (Elt F) → (⟨S100000x1, .i1⟩ : BufTy).Contents (Elt F)),
    StableHlo.nullary main_cst_12 (constant S_ .f32 0x3F800000#32),
    StableHlo.unary main_cst_12 main_v48 (broadcastInDim S100000 ![] bcast_S_S100000 : (⟨S_, .f32⟩ : BufTy).Contents (Elt F) → (⟨S100000, .f32⟩ : BufTy).Contents (Elt F)),
    StableHlo.binary main_v44 main_v48 main_v49 (maximumf : (⟨S100000, .f32⟩ : BufTy).Contents (Elt F) → (⟨S100000, .f32⟩ : BufTy).Contents (Elt F) → (⟨S100000, .f32⟩ : BufTy).Contents (Elt F)),
    StableHlo.unary main_v49 main_v50 (broadcastInDim S100000x1 ![0] bcast_S100000_S100000x1_0 : (⟨S100000, .f32⟩ : BufTy).Contents (Elt F) → (⟨S100000x1, .f32⟩ : BufTy).Contents (Elt F)),
    StableHlo.unary main_v50 main_v51 (broadcastInDim S100000x128 ![0, 1] bcast_S100000x1_S100000x128_0_1 : (⟨S100000x1, .f32⟩ : BufTy).Contents (Elt F) → (⟨S100000x128, .f32⟩ : BufTy).Contents (Elt F)),
    StableHlo.binary main_v40 main_v51 main_v52 (Host.divf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x00000000#32),
    StableHlo.TRef.unary (StableHlo.TRef.of (T := ⟨S100000x1, .i1⟩) main_v47) main_call1.v0 (broadcastInDim S100000x128 ![0, 1] bcast_S100000x1_S100000x128_0_1),
    StableHlo.TRef.unary (StableHlo.TRef.of (T := ⟨S_, .f32⟩) main_cst_13) main_call1.v1 (broadcastInDim S100000x128 ![] bcast_S_S100000x128),
    StableHlo.TRef.ternary main_call1.v0 (StableHlo.TRef.of (T := ⟨S100000x128, .f32⟩) main_v52) main_call1.v1 main_call1.v2 select,
    StableHlo.unary main_arg1 main_v54 ((extractStridedSlice S1x1x1000000 ![2, 0, 0] · slices_S3x2x1000000_S1x1x1000000_2_0_0) : (⟨S3x2x1000000, .i32⟩ : BufTy).Contents (Elt F) → (⟨S1x1x1000000, .i32⟩ : BufTy).Contents (Elt F)),
    StableHlo.reshape main_v54 main_v55 rfl shapeCasts_S1x1x1000000_S1000000,
    StableHlo.unary main_arg1 main_v56 ((extractStridedSlice S1x1x1000000 ![2, 1, 0] · slices_S3x2x1000000_S1x1x1000000_2_1_0) : (⟨S3x2x1000000, .i32⟩ : BufTy).Contents (Elt F) → (⟨S1x1x1000000, .i32⟩ : BufTy).Contents (Elt F)),
    StableHlo.reshape main_v56 main_v57 rfl shapeCasts_S1x1x1000000_S1000000,
    StableHlo.nullary main_c_14 (constantI S_ 32 0#32),
    StableHlo.unary main_c_14 main_v58 (broadcastInDim S1000000 ![] bcast_S_S1000000 : (⟨S_, .i32⟩ : BufTy).Contents (Elt F) → (⟨S1000000, .i32⟩ : BufTy).Contents (Elt F)),
    StableHlo.binary main_v55 main_v58 main_v59 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 100000#32),
    StableHlo.unary main_c_15 main_v60 (broadcastInDim S1000000 ![] bcast_S_S1000000 : (⟨S_, .i32⟩ : BufTy).Contents (Elt F) → (⟨S1000000, .i32⟩ : BufTy).Contents (Elt F)),
    StableHlo.binary main_v55 main_v60 main_v61 (addi : (⟨S1000000, .i32⟩ : BufTy).Contents (Elt F) → (⟨S1000000, .i32⟩ : BufTy).Contents (Elt F) → (⟨S1000000, .i32⟩ : BufTy).Contents (Elt F)),
    StableHlo.ternary main_v59 main_v61 main_v55 main_v62 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v62 main_v63 (broadcastInDim S1000000x1 ![0] bcast_S1000000_S1000000x1_0 : (⟨S1000000, .i32⟩ : BufTy).Contents (Elt F) → (⟨S1000000x1, .i32⟩ : BufTy).Contents (Elt F)),
    StableHlo.binary main_arg0 main_v63 main_v64 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_16 (constant S_ .f32 0x00000000#32),
    StableHlo.unary main_cst_16 main_v65 (broadcastInDim S100000x128 ![] bcast_S_S100000x128 : (⟨S_, .f32⟩ : BufTy).Contents (Elt F) → (⟨S100000x128, .f32⟩ : BufTy).Contents (Elt F)),
    StableHlo.unary main_v57 main_v66 (broadcastInDim S1000000x1 ![0] bcast_S1000000_S1000000x1_0 : (⟨S1000000, .i32⟩ : BufTy).Contents (Elt F) → (⟨S1000000x1, .i32⟩ : BufTy).Contents (Elt F)),
    StableHlo.ternary main_v65 main_v66 main_v64 main_v67 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_17 (constant S_ .f32 0x3F800000#32),
    StableHlo.unary main_cst_17 main_v68 (broadcastInDim S1000000 ![] bcast_S_S1000000 : (⟨S_, .f32⟩ : BufTy).Contents (Elt F) → (⟨S1000000, .f32⟩ : BufTy).Contents (Elt F)),
    StableHlo.nullary main_cst_18 (constant S_ .f32 0x00000000#32),
    StableHlo.unary main_cst_18 main_v69 (broadcastInDim S100000 ![] bcast_S_S100000 : (⟨S_, .f32⟩ : BufTy).Contents (Elt F) → (⟨S100000, .f32⟩ : BufTy).Contents (Elt F)),
    StableHlo.unary main_v57 main_v70 (broadcastInDim S1000000x1 ![0] bcast_S1000000_S1000000x1_0 : (⟨S1000000, .i32⟩ : BufTy).Contents (Elt F) → (⟨S1000000x1, .i32⟩ : BufTy).Contents (Elt F)),
    StableHlo.ternary main_v69 main_v70 main_v68 main_v71 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.unary main_v71 main_v72 (broadcastInDim S100000x1 ![0] bcast_S100000_S100000x1_0 : (⟨S100000, .f32⟩ : BufTy).Contents (Elt F) → (⟨S100000x1, .f32⟩ : BufTy).Contents (Elt F)),
    StableHlo.nullary main_cst_19 (constant S_ .f32 0x00000000#32),
    StableHlo.unary main_cst_19 main_v73 (broadcastInDim S100000x1 ![] bcast_S_S100000x1 : (⟨S_, .f32⟩ : BufTy).Contents (Elt F) → (⟨S100000x1, .f32⟩ : BufTy).Contents (Elt F)),
    StableHlo.binary main_v72 main_v73 main_v74 (cmpf .ogt : (⟨S100000x1, .f32⟩ : BufTy).Contents (Elt F) → (⟨S100000x1, .f32⟩ : BufTy).Contents (Elt F) → (⟨S100000x1, .i1⟩ : BufTy).Contents (Elt F)),
    StableHlo.nullary main_cst_20 (constant S_ .f32 0x3F800000#32),
    StableHlo.unary main_cst_20 main_v75 (broadcastInDim S100000 ![] bcast_S_S100000 : (⟨S_, .f32⟩ : BufTy).Contents (Elt F) → (⟨S100000, .f32⟩ : BufTy).Contents (Elt F)),
    StableHlo.binary main_v71 main_v75 main_v76 (maximumf : (⟨S100000, .f32⟩ : BufTy).Contents (Elt F) → (⟨S100000, .f32⟩ : BufTy).Contents (Elt F) → (⟨S100000, .f32⟩ : BufTy).Contents (Elt F)),
    StableHlo.unary main_v76 main_v77 (broadcastInDim S100000x1 ![0] bcast_S100000_S100000x1_0 : (⟨S100000, .f32⟩ : BufTy).Contents (Elt F) → (⟨S100000x1, .f32⟩ : BufTy).Contents (Elt F)),
    StableHlo.unary main_v77 main_v78 (broadcastInDim S100000x128 ![0, 1] bcast_S100000x1_S100000x128_0_1 : (⟨S100000x1, .f32⟩ : BufTy).Contents (Elt F) → (⟨S100000x128, .f32⟩ : BufTy).Contents (Elt F)),
    StableHlo.binary main_v67 main_v78 main_v79 (Host.divf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x00000000#32),
    StableHlo.TRef.unary (StableHlo.TRef.of (T := ⟨S100000x1, .i1⟩) main_v74) main_call2.v0 (broadcastInDim S100000x128 ![0, 1] bcast_S100000x1_S100000x128_0_1),
    StableHlo.TRef.unary (StableHlo.TRef.of (T := ⟨S_, .f32⟩) main_cst_21) main_call2.v1 (broadcastInDim S100000x128 ![] bcast_S_S100000x128),
    StableHlo.TRef.ternary main_call2.v0 (StableHlo.TRef.of (T := ⟨S100000x128, .f32⟩) main_v79) main_call2.v1 main_call2.v2 select ]

/-- The last operation: the node features and the three means joined along the lanes. -/
abbrev opCat : HloOp τ sig (Elt F) :=
  StableHlo.nary ![main_arg0, main_v26, main_v53, main_v80] main_v81 (fun u => concatenate S100000x512 1 [⟨S100000x128, u 0⟩, ⟨S100000x128, u 1⟩, ⟨S100000x128, u 2⟩, ⟨S100000x128, u 3⟩] concatenates_S100000x128_S100000x128_S100000x128_S100000x128_S100000x512_d1)

/-- @main's 112 operations, in order. -/
abbrev ops : List (HloOp τ sig (Elt F)) := opsPre ++ [opCat]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsPre_sub : (opsPre : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
theorem ops_sub : (ops : List (HloOp τ sig (Elt F))).Forall fun op => op.bufs ⊆ tcRefs τ sig :=
  List.forall_iff_forall_mem.mpr fun op hop => by
    rcases List.mem_append.mp hop with h | h
    · exact (List.forall_iff_forall_mem.mp opsPre_sub) op h
    · rw [List.mem_singleton.mp h]; exact nary_bufs_sub ..

/-- Every operation determines its results. -/
theorem opsPre_fresh : ∀ op ∈ (opsPre : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op hop
  rcases List.mem_append.mp hop with h | h
  · exact opsPre_fresh op h
  · rw [List.mem_singleton.mp h]; rfl

/-- Every weakly fair execution of the reference's @main terminates, with every TensorCore buffer at the fold of the
    operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Line

end
-- ==== Proof.LibColBroadcast.lean ====
/-
  A vector spread over the columns of a matrix, as jax prints `v[:, None]` meeting an `[a, b]` array.

  The host places a vector `[a]` as the one column of `[a, 1]` and repeats that column over `b` columns (two
  `broadcast_in_dim`s). Read at `(r, c)` the result is the vector at `r`, whatever the column. A scalar spread over
  a whole array reads the scalar at every index. Imports only the Idealize library.
-/
import Idealize.ShloMosaic.Lib.Pipeline.Value
import Idealize.ShloMosaic.Lib.ValueIdx

noncomputable section

namespace Cert.Lib.ColBroadcast

open Idealize.ShloMosaic Idealize.ShloMosaic.ValueIdx

/-- A vector `[a]` placed as the one column of `[a, 1]` and that column repeated over `b` columns reads, at
    `(r, c)`, the vector at `r` (for `a ≠ 1`: the library's lemma asks whether the axis is a unit one). -/
theorem col_apply {α : Type} {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (c : Fin b) :
    broadcastInDim ⟨2, ![a, b]⟩ ![0, 1] h2 (broadcastInDim ⟨2, ![a, 1]⟩ ![0] h1 x) (ix2 r c) = x (ix1 r) :=
  (broadcastInDim_apply ![0, 1] h2 _ (ix2 r c) (ix2 r (⟨0, Nat.one_pos⟩ : Fin 1)) (fun d => match d with
      | ⟨0, _⟩ => by show r.val = if a = 1 then 0 else r.val; rw [if_neg ha]
      | ⟨1, _⟩ => by show (0 : ℕ) = if (1 : ℕ) = 1 then 0 else c.val; rw [if_pos rfl])).trans
    (broadcastInDim_apply ![0] h1 x (ix2 r (⟨0, Nat.one_pos⟩ : Fin 1)) (ix1 r) (fun d => match d with
      | ⟨0, _⟩ => by show r.val = if a = 1 then 0 else r.val; rw [if_neg ha]))

/-- A scalar spread over an array reads the scalar at every index. -/
theorem scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun d => d.elim0)

end Cert.Lib.ColBroadcast

end
-- ==== Proof.ReferenceValue.lean ====
/-
  What the reference's result holds, in terms of the launch arrays.

  For each edge type t the reference computes the type's sums and counts exactly as the kernel's host lines do, then the
  type's mean as one whole-array expression (`meanOf`): the counts compared with zero, placed as a column and repeated
  along the lanes, select between the sums over the counts raised to at least one (a column repeated along the lanes) and
  zero. Its result is the node features and the three means joined along the lanes.

  Read at (r, j): lanes below 128 are the features; lane 128·(t+1) + l is `mean1 (count_t r) (sum_t (r, l))` — on the
  extended reals the host's quotient is the quotient. So the result is `perType` of the features, sums and counts.
-/
import proofs.«121044_j28295244546274_1_alg».proof.Proof.ReferenceRun
import proofs.«121044_j28295244546274_1_alg».proof.Proof.MeanConcat
import proofs.«121044_j28295244546274_1_alg».proof.Proof.LibColBroadcast
import proofs.«121044_j28295244546274_1_alg».proof.Proof.LibSideBySide
import Idealize.ShloMosaic.Lib.Pipeline.Value
import Idealize.ShloMosaic.Lib.ValueIdx

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx
open Cert.Lib.HostLine
open Cert.MeanConcat (mean1 mean1Host perType)

variable {F : FTy → Type} [FloatOps F]

/-! ## The host's terms -/

/-- Row `[t, s, :]` of the edge list as a vector of 1000000 indices. -/
def edgeRow (e : IVec S3x2x1000000 32) (off : Fin 3 → Nat) (hs : S3x2x1000000.Slices off S1x1x1000000) : IVec S1000000 32 :=
  shapeCast S1000000 (extractStridedSlice S1x1x1000000 off e hs) shapeCasts_S1x1x1000000_S1000000

/-- A negative index counts from the end: the node count is added to it. -/
def wrapIdx (a : IVec S1000000 32) : IVec S1000000 32 :=
  select (cmpi .slt a (broadcastInDim S1000000 ![] bcast_S_S1000000 (constantI S_ 32 0#32)))
    (addi a (broadcastInDim S1000000 ![] bcast_S_S1000000 (constantI S_ 32 100000#32))) a

/-- An index vector as the one column of an index matrix. -/
def colIdx (a : IVec S1000000 32) : IVec S1000000x1 32 := broadcastInDim S1000000x1 ![0] bcast_S1000000_S1000000x1_0 a

/-- One edge type's sums: the features gathered at the sources, scatter-added at the destinations into zeros. -/
def sumOf (x : FVec F S100000x128 .f32) (src dst : IVec S1000000 32) : FVec F S100000x128 .f32 :=
  Host.scatterAdd scatter_S100000x128_S1000000x1_S1000000x128_1_0_0_1
    (broadcastInDim S100000x128 ![] bcast_S_S100000x128 (constant S_ .f32 0x00000000#32)) (colIdx dst)
    (Host.gather gather_S100000x128_S1000000x1_S1000000x128_1_0_n_n_0_1_1128 x (colIdx (wrapIdx src)))

/-- One edge type's counts: ones scatter-added at the destinations into zeros. -/
def cntOf (dst : IVec S1000000 32) : FVec F S100000 .f32 :=
  Host.scatterAdd scatter_S100000_S1000000x1_S1000000_n_0_0_1
    (broadcastInDim S100000 ![] bcast_S_S100000 (constant S_ .f32 0x00000000#32)) (colIdx dst)
    (broadcastInDim S1000000 ![] bcast_S_S1000000 (constant S_ .f32 0x3F800000#32))

/-- One edge type's mean as the reference computes it, array-wide. -/
def meanOf (s : FVec F S100000x128 .f32) (cn : FVec F S100000 .f32) : FVec F S100000x128 .f32 :=
  select
    (broadcastInDim S100000x128 ![0, 1] bcast_S100000x1_S100000x128_0_1
      (cmpf .ogt (broadcastInDim S100000x1 ![0] bcast_S100000_S100000x1_0 cn)
        (broadcastInDim S100000x1 ![] bcast_S_S100000x1 (constant S_ .f32 0x00000000#32))))
    (Host.divf s
      (broadcastInDim S100000x128 ![0, 1] bcast_S100000x1_S100000x128_0_1
        (broadcastInDim S100000x1 ![0] bcast_S100000_S100000x1_0
          (maximumf cn (broadcastInDim S100000 ![] bcast_S_S100000 (constant S_ .f32 0x3F800000#32))))))
    (broadcastInDim S100000x128 ![] bcast_S_S100000x128 (constant S_ .f32 0x00000000#32))

/-- An entry of the mean reads one count and one sum. -/
theorem meanOf_apply (s : FVec F S100000x128 .f32) (cn : FVec F S100000 .f32) (r : Fin 100000) (l : Fin 128) :
    meanOf s cn (ix2 r l) = mean1Host (cn (ix1 r)) (s (ix2 r l)) := by
  have e1 : broadcastInDim S100000x128 ![0, 1] bcast_S100000x1_S100000x128_0_1
      (cmpf .ogt (broadcastInDim S100000x1 ![0] bcast_S100000_S100000x1_0 cn)
        (broadcastInDim S100000x1 ![] bcast_S_S100000x1 (constant S_ .f32 0x00000000#32))) (ix2 r l)
      = FloatOps.cmpf .ogt (cn (ix1 r)) (FloatOps.ofBits .f32 0x00000000#32) := by
    refine (Cert.Lib.SideBySide.spread_col_apply (by decide) _ _ r l).trans ?_
    show FloatOps.cmpf .ogt (broadcastInDim S100000x1 ![0] bcast_S100000_S100000x1_0 cn (ix2 r (0 : Fin 1)))
      (broadcastInDim S100000x1 ![] bcast_S_S100000x1 (constant S_ .f32 0x00000000#32) (ix2 r (0 : Fin 1))) = _
    rw [Cert.Lib.SideBySide.unit_col_apply cn _ r, Cert.Lib.ColBroadcast.scalar_apply]
    rfl
  have e2 : broadcastInDim S100000x128 ![0, 1] bcast_S100000x1_S100000x128_0_1
      (broadcastInDim S100000x1 ![0] bcast_S100000_S100000x1_0
        (maximumf cn (broadcastInDim S100000 ![] bcast_S_S100000 (constant S_ .f32 0x3F800000#32)))) (ix2 r l)
      = FloatOps.maximumf (cn (ix1 r)) (FloatOps.ofBits .f32 0x3F800000#32) := by
    refine (Cert.Lib.ColBroadcast.col_apply (by decide) _ _ _ r l).trans ?_
    show FloatOps.maximumf (cn (ix1 r)) (broadcastInDim S100000 ![] bcast_S_S100000 (constant S_ .f32 0x3F800000#32) (ix1 r)) = _
    rw [Cert.Lib.ColBroadcast.scalar_apply]
    rfl
  have e3 : broadcastInDim S100000x128 ![] bcast_S_S100000x128 (constant (F := F) S_ .f32 0x00000000#32) (ix2 r l)
      = FloatOps.ofBits .f32 0x00000000#32 := by
    rw [Cert.Lib.ColBroadcast.scalar_apply]; rfl
  unfold meanOf mean1Host
  show Scalar.select _ (FloatOps.hostDivf (s (ix2 r l)) _) _ = _
  rw [e1, e2, e3]

variable (m : (ℓ : Loc nD τ sig) → Buf (Elt F) ℓ)

/-! ## The line cut before the final join -/

/-- The buffers after the first 111 operations. -/
abbrev W111 (c : Dev nD) : Valuation τ sig (Elt F) := after opsPre (launchContents m c)

/-- The result is the join of what the first 111 operations left in the four joined buffers. -/
theorem result_split (c : Dev nD) :
    after ops (launchContents m c) (Proc.devRef .tc main_v81)
      = concatenate S100000x512 1 [⟨S100000x128, W111 m c (Proc.devRef .tc main_arg0)⟩, ⟨S100000x128, W111 m c (Proc.devRef .tc main_v26)⟩,
          ⟨S100000x128, W111 m c (Proc.devRef .tc main_v53)⟩, ⟨S100000x128, W111 m c (Proc.devRef .tc main_v80)⟩]
          concatenates_S100000x128_S100000x128_S100000x128_S100000x128_S100000x512_d1 := by
  show after (opsPre ++ [opCat]) (launchContents m c) (Proc.devRef .tc main_v81) = _
  rw [StableHlo.after_append]
  simp only [after_cons, after_nil]
  rw [nary4_result]
  rfl

set_option maxHeartbeats 4000000

/-- No operation writes the node features. -/
theorem W_feats (c : Dev nD) : W111 m c (Proc.devRef .tc main_arg0) = m ((c.tc : Thread nD τ).loc main_arg0) := by
  dsimp only [W111, opsPre]
  after_results_simp <;> rfl

/-- Edge type 0's mean, as the first 111 operations leave it. -/
theorem W_mean0 (c : Dev nD) :
    W111 m c (Proc.devRef .tc main_v26) = meanOf (sumOf (m ((c.tc : Thread nD τ).loc main_arg0)) (edgeRow (m ((c.tc : Thread nD τ).loc main_arg1)) ![0, 0, 0] slices_S3x2x1000000_S1x1x1000000_0_0_0) (edgeRow (m ((c.tc : Thread nD τ).loc main_arg1)) ![0, 1, 0] slices_S3x2x1000000_S1x1x1000000_0_1_0)) (cntOf (F := F) (edgeRow (m ((c.tc : Thread nD τ).loc main_arg1)) ![0, 1, 0] slices_S3x2x1000000_S1x1x1000000_0_1_0)) := by
  dsimp only [W111, opsPre]
  after_results_simp <;> rfl

/-- Edge type 1's mean, as the first 111 operations leave it. -/
theorem W_mean1 (c : Dev nD) :
    W111 m c (Proc.devRef .tc main_v53) = meanOf (sumOf (m ((c.tc : Thread nD τ).loc main_arg0)) (edgeRow (m ((c.tc : Thread nD τ).loc main_arg1)) ![1, 0, 0] slices_S3x2x1000000_S1x1x1000000_1_0_0) (edgeRow (m ((c.tc : Thread nD τ).loc main_arg1)) ![1, 1, 0] slices_S3x2x1000000_S1x1x1000000_1_1_0)) (cntOf (F := F) (edgeRow (m ((c.tc : Thread nD τ).loc main_arg1)) ![1, 1, 0] slices_S3x2x1000000_S1x1x1000000_1_1_0)) := by
  dsimp only [W111, opsPre]
  after_results_simp <;> rfl

/-- Edge type 2's mean, as the first 111 operations leave it. -/
theorem W_mean2 (c : Dev nD) :
    W111 m c (Proc.devRef .tc main_v80) = meanOf (sumOf (m ((c.tc : Thread nD τ).loc main_arg0)) (edgeRow (m ((c.tc : Thread nD τ).loc main_arg1)) ![2, 0, 0] slices_S3x2x1000000_S1x1x1000000_2_0_0) (edgeRow (m ((c.tc : Thread nD τ).loc main_arg1)) ![2, 1, 0] slices_S3x2x1000000_S1x1x1000000_2_1_0)) (cntOf (F := F) (edgeRow (m ((c.tc : Thread nD τ).loc main_arg1)) ![2, 1, 0] slices_S3x2x1000000_S1x1x1000000_2_1_0)) := by
  dsimp only [W111, opsPre]
  after_results_simp <;> rfl

/-- No operation writes the edge list. -/
theorem W_edges (c : Dev nD) : W111 m c (Proc.devRef .tc main_arg1) = m ((c.tc : Thread nD τ).loc main_arg1) := by
  dsimp only [W111, opsPre]
  after_results_simp <;> rfl

/-- The final join writes only the result buffer. -/
theorem kept (c : Dev nD) (b : Ref sig .tc) (hb : b ≠ main_v81) :
    after ops (launchContents m c) (Proc.devRef .tc b) = W111 m c (Proc.devRef .tc b) := by
  show after (opsPre ++ [opCat]) (launchContents m c) (Proc.devRef .tc b) = _
  rw [StableHlo.after_append]
  simp only [after_cons, after_nil]
  rw [nary_result_ne]
  exact hb

/-- The frame: the run ends with both argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0).trans ((kept m c main_arg0 (by decide)).trans (W_feats m c)),
      (h c main_arg1).trans ((kept m c main_arg1 (by decide)).trans (W_edges m c))⟩) (run_all m ρ)

/-- The result of the launch arrays. -/
abbrev resultOf (c : Dev nD) : Cert.MeanConcat.Out.Idx → F .f32 :=
  perType (m ((c.tc : Thread nD τ).loc main_arg0)) (sumOf (m ((c.tc : Thread nD τ).loc main_arg0)) (edgeRow (m ((c.tc : Thread nD τ).loc main_arg1)) ![0, 0, 0] slices_S3x2x1000000_S1x1x1000000_0_0_0) (edgeRow (m ((c.tc : Thread nD τ).loc main_arg1)) ![0, 1, 0] slices_S3x2x1000000_S1x1x1000000_0_1_0)) (sumOf (m ((c.tc : Thread nD τ).loc main_arg0)) (edgeRow (m ((c.tc : Thread nD τ).loc main_arg1)) ![1, 0, 0] slices_S3x2x1000000_S1x1x1000000_1_0_0) (edgeRow (m ((c.tc : Thread nD τ).loc main_arg1)) ![1, 1, 0] slices_S3x2x1000000_S1x1x1000000_1_1_0)) (sumOf (m ((c.tc : Thread nD τ).loc main_arg0)) (edgeRow (m ((c.tc : Thread nD τ).loc main_arg1)) ![2, 0, 0] slices_S3x2x1000000_S1x1x1000000_2_0_0) (edgeRow (m ((c.tc : Thread nD τ).loc main_arg1)) ![2, 1, 0] slices_S3x2x1000000_S1x1x1000000_2_1_0)) (cntOf (F := F) (edgeRow (m ((c.tc : Thread nD τ).loc main_arg1)) ![0, 1, 0] slices_S3x2x1000000_S1x1x1000000_0_1_0)) (cntOf (F := F) (edgeRow (m ((c.tc : Thread nD τ).loc main_arg1)) ![1, 1, 0] slices_S3x2x1000000_S1x1x1000000_1_1_0)) (cntOf (F := F) (edgeRow (m ((c.tc : Thread nD τ).loc main_arg1)) ![2, 1, 0] slices_S3x2x1000000_S1x1x1000000_2_1_0))

end Cert.ReferenceIdeal.Line

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx
open Cert.Lib.HostLine
open Cert.MeanConcat (mean1 mean1Host perType)

/-- On the extended reals, the features and three means joined along the lanes are the per-type result: lane j < 128 reads the
    features, lane 128·(t+1) + l reads type t's mean at l, whose entry is `mean1` of the row's count and the entry's sum. -/
theorem join_eq_perType (x s0 s1 s2 : FVec Ideal S100000x128 .f32) (c0 c1 c2 : FVec Ideal S100000 .f32) :
    concatenate S100000x512 1 [⟨S100000x128, x⟩, ⟨S100000x128, meanOf s0 c0⟩, ⟨S100000x128, meanOf s1 c1⟩, ⟨S100000x128, meanOf s2 c2⟩]
        concatenates_S100000x128_S100000x128_S100000x128_S100000x128_S100000x512_d1
      = perType x s0 s1 s2 c0 c1 c2 := by
  funext i
  obtain ⟨r, q, rfl⟩ : ∃ (r : Fin 100000) (q : Fin 512), i = ix2 r q := ⟨i 0, i 1, eq_ix2 i⟩
  have hq := q.isLt
  by_cases h0 : q.val < 128
  · rw [Cert.MeanConcat.perType_lt _ _ _ _ _ _ _ r q ⟨q.val, h0⟩ rfl]
    exact Cert.Lib.SideBySide.cat4_cols_0 _ _ _ _ _ r q ⟨q.val, h0⟩ (by show q.val = 0 + q.val; omega)
  · by_cases h1 : q.val < 256
    · have e : q.val = 128 + (q.val - 128) := by omega
      rw [Cert.MeanConcat.perType_band0 _ _ _ _ _ _ _ r q ⟨q.val - 128, by omega⟩ e]
      exact (Cert.Lib.SideBySide.cat4_cols_1 _ _ _ _ _ r q ⟨q.val - 128, by omega⟩ e).trans
        ((meanOf_apply s0 c0 r _).trans (Cert.MeanConcat.mean1Host_eq _ _))
    · by_cases h2 : q.val < 384
      · have e : q.val = 256 + (q.val - 256) := by omega
        have e' : q.val = 128 + 128 + (q.val - 256) := by omega
        rw [Cert.MeanConcat.perType_band1 _ _ _ _ _ _ _ r q ⟨q.val - 256, by omega⟩ e]
        exact (Cert.Lib.SideBySide.cat4_cols_2 _ _ _ _ _ r q ⟨q.val - 256, by omega⟩ e').trans
          ((meanOf_apply s1 c1 r _).trans (Cert.MeanConcat.mean1Host_eq _ _))
      · have e : q.val = 384 + (q.val - 384) := by omega
        have e' : q.val = 128 + 128 + 128 + (q.val - 384) := by omega
        rw [Cert.MeanConcat.perType_band2 _ _ _ _ _ _ _ r q ⟨q.val - 384, by omega⟩ e]
        exact (Cert.Lib.SideBySide.cat4_cols_3 _ _ _ _ _ r q ⟨q.val - 384, by omega⟩ e').trans
          ((meanOf_apply s2 c2 r _).trans (Cert.MeanConcat.mean1Host_eq _ _))

/-- The reference's run on the extended reals, read over the launch arrays. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v81).trans ((result_split m c).trans
        ((cat4_congr _ (W_feats m c) (W_mean0 m c) (W_mean1 m c) (W_mean2 m c)).trans (join_eq_perType _ _ _ _ _ _ _))),
      (h c main_arg0).trans ((kept m c main_arg0 (by decide)).trans (W_feats m c)),
      (h c main_arg1).trans ((kept m c main_arg1 (by decide)).trans (W_edges m c))⟩) (run_all m ρ)

end Cert.ReferenceIdeal.Line

end
-- ==== Proof.lean ====
/-
  A graph mean-aggregation layer: for each of three edge types, every node receives the mean of the features of the
  nodes that send it an edge of that type (zero when none does), and the result row of a node is its own 128 features
  followed by the three 128-lane means.

  Both programs compute, per edge type t, the same two arrays on the host: the sums (the feature rows gathered at the edges'
  sources — a negative index counted from the end — and scatter-added at the edges' destinations into zeros) and the counts
  (ones scatter-added at the destinations into zeros). They differ only in where the mean is formed and how it is laid out:

  * the kernel stacks the three sums as [100000, 3, 128] and the three counts as [100000, 3], and its body, on blocks of 2000
    rows, repeats each count along the lanes, forms  select (count > 0) (sum / max count 1) 0  entry by entry, and stores the
    features and the three middle-axis slices of that mean as four bands of 128 lanes of the [100000, 512] result;
  * the reference forms each type's mean over whole arrays (the count placed as a column and repeated along the lanes) and
    joins the features and the three means along the lanes.

  Entry (r, j) of either result is the feature (r, j) for j < 128 and otherwise
  mean1 (count_t r) (sum_t (r, j − 128·(t+1)))  with  t = j / 128 − 1  (`Cert.MeanConcat.perType`): the kernel's through the
  blocks' payloads and the stacking read at an index, the reference's through its join and broadcasts read at an index; on
  the extended reals the host's quotient is the quotient, and no other law is used — the sums and counts are the same terms
  of the launch arrays on both sides and are never opened. So the precondition (finite inputs) is not used.

  The frames: each kernel program is its host line followed by one region over a grid of 50 points, whose body loads three
  input blocks and covers the output block with four stores; no host operation and no write-back touches an argument array.
  The reference is a straight line of host operations, none of which writes an argument array. The idealization rewrote
  nothing, so `preserves` has no conjunct.
-/
import proofs.«121044_j28295244546274_1_alg».proof.Defs
import proofs.«121044_j28295244546274_1_alg».proof.Proof.Gen.Kernel
import proofs.«121044_j28295244546274_1_alg».proof.Proof.Gen.Kernel.Skeleton
import proofs.«121044_j28295244546274_1_alg».proof.Proof.Gen.Kernel.Launch
import proofs.«121044_j28295244546274_1_alg».proof.Proof.Gen.Kernel.Points
import proofs.«121044_j28295244546274_1_alg».proof.Proof.Gen.KernelIdeal
import proofs.«121044_j28295244546274_1_alg».proof.Proof.Gen.KernelIdeal.Skeleton
import proofs.«121044_j28295244546274_1_alg».proof.Proof.Gen.KernelIdeal.Launch
import proofs.«121044_j28295244546274_1_alg».proof.Proof.Gen.KernelIdeal.Points
import proofs.«121044_j28295244546274_1_alg».proof.Proof.Gen.ReferenceIdeal
import proofs.«121044_j28295244546274_1_alg».proof.Proof.Gen.Pre_finite_inputs
import proofs.«121044_j28295244546274_1_alg».proof.Proof.KernelFrame
import proofs.«121044_j28295244546274_1_alg».proof.Proof.KernelIdealResult
import proofs.«121044_j28295244546274_1_alg».proof.Proof.ReferenceValue
import Idealize.ShloMosaic.Adequacy
import Idealize.ShloMosaic.Init

noncomputable section

namespace Cert.Proof

open Idealize.ShloMosaic Idealize.ShloMosaic.TcCoe Idealize.SL.Sem

/-- The printed kernel runs and leaves its argument arrays as launched. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- So does the reference. -/
theorem frame_referenceIdeal : Cert.frame_ReferenceIdeal := fun m ρ _ => Cert.ReferenceIdeal.Line.frame m ρ

/-- The idealization rewrote nothing. -/
theorem preserves : Cert.preserves_Kernel_KernelIdeal := trivial

/-- From memories agreeing on the node features and the edge list, both results are `perType` of the features and of
    the same six host terms of the two arrays. -/
theorem algebraic : Cert.algebraic_KernelIdeal_ReferenceIdeal := by
  intro m ρ m' ρ' _ hagree
  refine ⟨fun c => Cert.KernelIdeal.Region.resultOf m c, Cert.KernelIdeal.Region.run_result (F := Ideal) m ρ, ?_⟩
  refine (θ_run Cert.ReferenceIdeal.defs _ _).mono (fun _ h c => ⟨(h c).1.trans ?_, (h c).2⟩)
    (Cert.ReferenceIdeal.Line.run_result m' ρ')
  dsimp only [Cert.ReferenceIdeal.Line.resultOf, Cert.KernelIdeal.Region.resultOf]
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
